-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x512 : Shape := ⟨3, ![256, 1024, 512]⟩
abbrev S1024 : Shape := ⟨1, ![1024]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S256x1024x512 : S_.BroadcastsInDim S256x1024x512 (![] : Fin 0 → Fin S256x1024x512.rank)
  reducesTo_S256x1024x512_S_d0_1_2 : S256x1024x512.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_arg13 : FVec F S512 .f32) (main_arg14 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  main_v63

def fn_part2 {F : FTy → Type} [FloatOps F] (main_arg9 : FVec F S512x256 .f32) (main_arg10 : FVec F S512 .f32) (main_arg11 : FVec F S512 .f32) (main_arg12 : FVec F S512 .f32) (main_arg13 : FVec F S512 .f32) (main_arg14 : FVec F S512 .f32) (main_v33 : IVec S_ 1) : IVec S_ 1 :=
  let main_v34 : FVec F S512x256 .f32 := Host.absf main_arg9
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_v48 main_v49 main_v50

def fn_part1 {F : FTy → Type} [FloatOps F] (main_arg6 : FVec F S256 .f32) (main_arg7 : FVec F S256x512 .f32) (main_arg8 : FVec F S256 .f32) (main_arg9 : FVec F S512x256 .f32) (main_arg10 : FVec F S512 .f32) (main_arg11 : FVec F S512 .f32) (main_arg12 : FVec F S512 .f32) (main_arg13 : FVec F S512 .f32) (main_arg14 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg7
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S256x1024x512 .f32) (main_arg1 : IVec S1024 32) (main_arg2 : IVec S1024 32) (main_arg3 : FVec F S256x512 .f32) (main_arg4 : FVec F S256 .f32) (main_arg5 : FVec F S256x512 .f32) (main_arg6 : FVec F S256 .f32) (main_arg7 : FVec F S256x512 .f32) (main_arg8 : FVec F S256 .f32) (main_arg9 : FVec F S512x256 .f32) (main_arg10 : FVec F S512 .f32) (main_arg11 : FVec F S512 .f32) (main_arg12 : FVec F S512 .f32) (main_arg13 : FVec F S512 .f32) (main_arg14 : FVec F S512 .f32) : IVec S_ 1 :=
  let main_v0 : FVec F S256x1024x512 .f32 := Host.absf main_arg0
  let main_cst : FVec F S_ .f32 := constant S_ .f32 0x7F800000#32
  let main_v1 : FVec F S256x1024x512 .f32 := broadcastInDim S256x1024x512 ![] bcast_S_S256x1024x512 main_cst
  let main_v2 : IVec S256x1024x512 1 := cmpf .olt main_v0 main_v1
  let main_c : IVec S_ 1 := constantI S_ 1 1#1
  let main_v3 : IVec S_ 1 := (fun x v => Host.reduce IntOp.andi x v reducesTo_S256x1024x512_S_d0_1_2 h_S_) main_v2 main_c
  let main_v4 : FVec F S256x512 .f32 := Host.absf main_arg3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg5
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg6 main_arg7 main_arg8 main_arg9 main_arg10 main_arg11 main_arg12 main_arg13 main_arg14 main_v13 main_v16
-- ==== Kernel.lean ====
abbrev S256x1024x512 : Shape := ⟨3, ![256, 1024, 512]⟩
abbrev S1024 : Shape := ⟨1, ![1024]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩
abbrev S1024x1 : Shape := ⟨2, ![1024, 1]⟩
abbrev S1x1024x512 : Shape := ⟨3, ![1, 1024, 512]⟩
abbrev S1024x512 : Shape := ⟨2, ![1024, 512]⟩
abbrev S1x256 : Shape := ⟨2, ![1, 256]⟩
abbrev S1x512 : Shape := ⟨2, ![1, 512]⟩
abbrev S1024x256 : Shape := ⟨2, ![1024, 256]⟩
abbrev S256x4x256 : Shape := ⟨3, ![256, 4, 256]⟩
abbrev S256x256 : Shape := ⟨2, ![256, 256]⟩

abbrev nBuf : Space → Nat
  | .hbm => 34
  | .vmem => 16
  | .smem => 0
  | _ => 0

abbrev bufTy : (tb : Table) → Fin (tcTables nBuf tb) → BufTy
  | .hbm, ⟨0, _⟩ => ⟨S256x1024x512, .f32⟩
  | .hbm, ⟨1, _⟩ => ⟨S1024, .i32⟩
  | .hbm, ⟨2, _⟩ => ⟨S1024, .i32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S512x256, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S256x1024x512, .f32⟩
  | .hbm, ⟨24, _⟩ => ⟨S256x1024x512, .f32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S256x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S256x512, .f32⟩
  | .local _ .vmem, ⟨3, _⟩ => ⟨S256, .f32⟩
  | .local _ .vmem, ⟨4, _⟩ => ⟨S256x512, .f32⟩
  | .local _ .vmem, ⟨5, _⟩ => ⟨S256, .f32⟩
  | .local _ .vmem, ⟨6, _⟩ => ⟨S256x512, .f32⟩
  | .local _ .vmem, ⟨7, _⟩ => ⟨S256, .f32⟩
  | .local _ .vmem, ⟨8, _⟩ => ⟨S512x256, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S1x1024x512, .f32⟩
  | .local _ .vmem, ⟨15, _⟩ => ⟨S1x1024x512, .f32⟩
  | _, _ => ⟨S256x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  inb_S512_S512_0 : ∀ a, (![0] : Fin 1 → Nat) a + S512.size a ≤ S512.size a
  h_S512 : 0 < S512.numel
  shapeCasts_S512_S1x512 : S512.ShapeCasts S1x512
  broadcasts_S1x256_S1024x256 : S1x256.Broadcasts S1024x256
  shapeCasts_S1024x256_S256x4x256 : S1024x256.ShapeCasts S256x4x256
  reduces_S256x4x256_S256x256 : S256x4x256.Reduces [1] S256x256
  reduces_S1024x256_S1024 : S1024x256.Reduces [1] S1024
  shapeCasts_S1024_S1024x1 : S1024.ShapeCasts S1024x1
  broadcasts_S1024x1_S1024x256 : S1024x1.Broadcasts S1024x256
  broadcasts_S1x512_S1024x512 : S1x512.Broadcasts S1024x512
  shapeCasts_S1024x512_S1x1024x512 : S1024x512.ShapeCasts S1x1024x512
  gather_S256x1024x512_S1024x1_S256x1024x512_02_1_n_n_1_1_2561512_wf : GatherDims.WF S256x1024x512 S1024x1 S256x1024x512 [0, 2] [1] [] [1] [] 1 ![256, 1, 512]
  dot_S1024x512_S256x512_S1024x256_1_1_0_0_n_n_wf : DotDims.WF S1024x512 S256x512 S1024x256 [1] [1] [0] [0] [] []
  dot_S1024x256_S256x256_S1024x256_1_1_0_0_n_n_wf : DotDims.WF S1024x256 S256x256 S1024x256 [1] [1] [0] [0] [] []
  dot_S1024x256_S256x256_S1024x256_1_0_0_1_n_n_wf : DotDims.WF S1024x256 S256x256 S1024x256 [1] [0] [0] [1] [] []
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S256x1024x512.size a
  hwx0_0 : ∀ i : grid0.Coords, EltTy.bits .f32 = 32 ∨ (Rect.block (s := S256x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1024x512.size a ≤ S256x1024x512.size a
  hwx0_13 : ∀ i : grid0.Coords, EltTy.bits .f32 = 32 ∨ (Rect.block (s := S256x1024x512) S1x1024x512.size (cc0_transform_13 i) (hinb0_13 i)).WholeWords (EltTy.packing .f32)

variable [Facts₀]

def gather_S256x1024x512_S1024x1_S256x1024x512_02_1_n_n_1_1_2561512 : GatherDims S256x1024x512 S1024x1 S256x1024x512 where
  offsetDims := [0, 2]
  collapsedSliceDims := [1]
  operandBatchingDims := []
  startIndicesBatchingDims := []
  startIndexMap := [1]
  indexVectorDim := 1
  sliceSizes := ![256, 1, 512]
  wf := gather_S256x1024x512_S1024x1_S256x1024x512_02_1_n_n_1_1_2561512_wf
def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_v6) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1x1024x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S256x1024x512 : Shape := ⟨3, ![256, 1024, 512]⟩
abbrev S1024 : Shape := ⟨1, ![1024]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩
abbrev S1024x1 : Shape := ⟨2, ![1024, 1]⟩
abbrev S256x1024x256 : Shape := ⟨3, ![256, 1024, 256]⟩
abbrev S1x1x256 : Shape := ⟨3, ![1, 1, 256]⟩
abbrev S256x256x4x256 : Shape := ⟨4, ![256, 256, 4, 256]⟩
abbrev S256x256x256 : Shape := ⟨3, ![256, 256, 256]⟩
abbrev S256x1024 : Shape := ⟨2, ![256, 1024]⟩
abbrev S256x1024x1 : Shape := ⟨3, ![256, 1024, 1]⟩
abbrev S1x1x512 : Shape := ⟨3, ![1, 1, 512]⟩

abbrev nBuf : Space → Nat
  | .hbm => 86
  | .vmem => 0
  | .smem => 0
  | _ => 0

abbrev bufTy : (tb : Table) → Fin (tcTables nBuf tb) → BufTy
  | .hbm, ⟨0, _⟩ => ⟨S256x1024x512, .f32⟩
  | .hbm, ⟨1, _⟩ => ⟨S1024, .i32⟩
  | .hbm, ⟨2, _⟩ => ⟨S1024, .i32⟩
  | .hbm, ⟨3, _⟩ => ⟨S256x512, .f32⟩
  | .hbm, ⟨4, _⟩ => ⟨S256, .f32⟩
  | .hbm, ⟨5, _⟩ => ⟨S256x512, .f32⟩
  | .hbm, ⟨6, _⟩ => ⟨S256, .f32⟩
  | .hbm, ⟨7, _⟩ => ⟨S256x512, .f32⟩
  | .hbm, ⟨8, _⟩ => ⟨S256, .f32⟩
  | .hbm, ⟨9, _⟩ => ⟨S512x256, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S256x1024x512, .f32⟩
  | .hbm, ⟨24, _⟩ => ⟨S256x1024x256, .f32⟩
  | .hbm, ⟨25, _⟩ => ⟨S1x1x256, .f32⟩
  | .hbm, ⟨26, _⟩ => ⟨S256x1024x256, .f32⟩
  | .hbm, ⟨27, _⟩ => ⟨S256x1024x256, .f32⟩
  | .hbm, ⟨28, _⟩ => ⟨S256x256x4x256, .f32⟩
  | .hbm, ⟨29, _⟩ => ⟨S_, .f32⟩
  | .hbm, ⟨30, _⟩ => ⟨S256x256x256, .f32⟩
  | .hbm, ⟨31, _⟩ => ⟨S256x1024x256, .f32⟩
  | .hbm, ⟨32, _⟩ => ⟨S1x1x256, .f32⟩
  | .hbm, ⟨33, _⟩ => ⟨S256x1024x256, .f32⟩
  | .hbm, ⟨34, _⟩ => ⟨S256x1024x256, .f32⟩
  | .hbm, ⟨35, _⟩ => ⟨S256x256x4x256, .f32⟩
  | .hbm, ⟨36, _⟩ => ⟨S_, .f32⟩
  | .hbm, ⟨37, _⟩ => ⟨S256x256x256, .f32⟩
  | .hbm, ⟨38, _⟩ => ⟨S256x1024x256, .f32⟩
  | .hbm, ⟨39, _⟩ => ⟨S1x1x256, .f32⟩
  | .hbm, ⟨40, _⟩ => ⟨S256x1024x256, .f32⟩
  | .hbm, ⟨41, _⟩ => ⟨S256x1024x256, .f32⟩
  | .hbm, ⟨42, _⟩ => ⟨S256x1024x256, .f32⟩
  | .hbm, ⟨43, _⟩ => ⟨S_, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S256x1024x1, .f32⟩
  | .hbm, ⟨49, _⟩ => ⟨S256x1024x256, .f32⟩
  | .hbm, ⟨50, _⟩ => ⟨S256x1024x256, .f32⟩
  | .hbm, ⟨51, _⟩ => ⟨S256x1024x256, .f32⟩
  | .hbm, ⟨52, _⟩ => ⟨S_, .f32⟩
  | .hbm, ⟨53, _⟩ => ⟨S256x1024, .f32⟩
  | .hbm, ⟨54, _⟩ => ⟨S256x1024x1, .f32⟩
  | .hbm, ⟨55, _⟩ => ⟨S256x1024x256, .f32⟩
  | .hbm, ⟨56, _⟩ => ⟨S256x1024x256, .f32⟩
  | .hbm, ⟨57, _⟩ => ⟨S256x1024x256, .f32⟩
  | .hbm, ⟨58, _⟩ => ⟨S256x1024x512, .f32⟩
  | .hbm, ⟨59, _⟩ => ⟨S1x1x512, .f32⟩
  | .hbm, ⟨60, _⟩ => ⟨S256x1024x512, .f32⟩
  | .hbm, ⟨61, _⟩ => ⟨S256x1024x512, .f32⟩
  | .hbm, ⟨62, _⟩ => ⟨S1x1x512, .f32⟩
  | .hbm, ⟨63, _⟩ => ⟨S256x1024x512, .f32⟩
  | .hbm, ⟨64, _⟩ => ⟨S256x1024x512, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S512, .f32⟩
  | .hbm, ⟨69, _⟩ => ⟨S512, .f32⟩
  | .hbm, ⟨70, _⟩ => ⟨S1x1x512, .f32⟩
  | .hbm, ⟨71, _⟩ => ⟨S256x1024x512, .f32⟩
  | .hbm, ⟨72, _⟩ => ⟨S256x1024x512, .f32⟩
  | .hbm, ⟨73, _⟩ => ⟨S1x1x512, .f32⟩
  | .hbm, ⟨74, _⟩ => ⟨S256x1024x512, .f32⟩
  | .hbm, ⟨75, _⟩ => ⟨S256x1024x512, .f32⟩
  | .hbm, ⟨76, _⟩ => ⟨S256x1024x512, .f32⟩
  | .hbm, ⟨77, _⟩ => ⟨S_, .i32⟩
  | .hbm, ⟨78, _⟩ => ⟨S1024, .i32⟩
  | .hbm, ⟨79, _⟩ => ⟨S1024, .i1⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S1024x1, .i32⟩
  | .hbm, ⟨85, _⟩ => ⟨S256x1024x512, .f32⟩
  | _, _ => ⟨S256x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_6 : Ref sig .tc := ⟨.hbm, 77, rfl⟩
abbrev main_v54 : Ref sig .tc := ⟨.hbm, 78, rfl⟩
abbrev main_v55 : Ref sig .tc := ⟨.hbm, 79, rfl⟩
abbrev main_c_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S256_S1x1x256_2 : S256.BroadcastsInDim S1x1x256 (![2] : Fin 1 → Fin S1x1x256.rank)
  bcast_S1x1x256_S256x1024x256_0_1_2 : S1x1x256.BroadcastsInDim S256x1024x256 (![0, 1, 2] : Fin 3 → Fin S256x1024x256.rank)
  shapeCasts_S256x1024x256_S256x256x4x256 : S256x1024x256.ShapeCasts S256x256x4x256
  reducesTo_S256x256x4x256_S256x256x256_d2 : S256x256x4x256.ReducesTo [2] S256x256x256
  h_S_ : 0 < S_.numel
  reducesTo_S256x1024x256_S256x1024_d2 : S256x1024x256.ReducesTo [2] S256x1024
  bcast_S_S256x1024 : S_.BroadcastsInDim S256x1024 (![] : Fin 0 → Fin S256x1024.rank)
  bcast_S256x1024_S256x1024x1_0_1 : S256x1024.BroadcastsInDim S256x1024x1 (![0, 1] : Fin 2 → Fin S256x1024x1.rank)
  bcast_S256x1024x1_S256x1024x256_0_1_2 : S256x1024x1.BroadcastsInDim S256x1024x256 (![0, 1, 2] : Fin 3 → Fin S256x1024x256.rank)
  bcast_S512_S1x1x512_2 : S512.BroadcastsInDim S1x1x512 (![2] : Fin 1 → Fin S1x1x512.rank)
  bcast_S1x1x512_S256x1024x512_0_1_2 : S1x1x512.BroadcastsInDim S256x1024x512 (![0, 1, 2] : Fin 3 → Fin S256x1024x512.rank)
  bcast_S_S512 : S_.BroadcastsInDim S512 (![] : Fin 0 → Fin S512.rank)
  gather_S256x1024x512_S1024x1_S256x1024x512_02_1_n_n_1_1_2561512_wf : GatherDims.WF S256x1024x512 S1024x1 S256x1024x512 [0, 2] [1] [] [1] [] 1 ![256, 1, 512]
  dot_S256x1024x512_S256x512_S256x1024x256_2_1_01_0_n_n_wf : DotDims.WF S256x1024x512 S256x512 S256x1024x256 [2] [1] [0, 1] [0] [] []
  dot_S256x1024x256_S256x256x256_S256x1024x256_2_2_1_1_0_0_wf : DotDims.WF S256x1024x256 S256x256x256 S256x1024x256 [2] [2] [1] [1] [0] [0]
  dot_S256x1024x256_S256x256x256_S256x1024x256_2_1_1_2_0_0_wf : DotDims.WF S256x1024x256 S256x256x256 S256x1024x256 [2] [1] [1] [2] [0] [0]
  dot_S256x1024x256_S512x256_S256x1024x512_2_1_01_0_n_n_wf : DotDims.WF S256x1024x256 S512x256 S256x1024x512 [2] [1] [0, 1] [0] [] []

variable [Facts₀]

def gather_S256x1024x512_S1024x1_S256x1024x512_02_1_n_n_1_1_2561512 : GatherDims S256x1024x512 S1024x1 S256x1024x512 where
  offsetDims := [0, 2]
  collapsedSliceDims := [1]
  operandBatchingDims := []
  startIndicesBatchingDims := []
  startIndexMap := [1]
  indexVectorDim := 1
  sliceSizes := ![256, 1, 512]
  wf := gather_S256x1024x512_S1024x1_S256x1024x512_02_1_n_n_1_1_2561512_wf
def dot_S256x1024x512_S256x512_S256x1024x256_2_1_01_0_n_n : DotDims S256x1024x512 S256x512 S256x1024x256 where
  lhsContracting := [2]
  rhsContracting := [1]
  lhsNonContracting := [0, 1]
  rhsNonContracting := [0]
  lhsBatch := []
  rhsBatch := []
  wf := dot_S256x1024x512_S256x512_S256x1024x256_2_1_01_0_n_n_wf
def dot_S256x1024x256_S256x256x256_S256x1024x256_2_2_1_1_0_0 : DotDims S256x1024x256 S256x256x256 S256x1024x256 where
  lhsContracting := [2]
  rhsContracting := [2]
  lhsNonContracting := [1]
  rhsNonContracting := [1]
  lhsBatch := [0]
  rhsBatch := [0]
  wf := dot_S256x1024x256_S256x256x256_S256x1024x256_2_2_1_1_0_0_wf
def dot_S256x1024x256_S256x256x256_S256x1024x256_2_1_1_2_0_0 : DotDims S256x1024x256 S256x256x256 S256x1024x256 where
  lhsContracting := [2]
  rhsContracting := [1]
  lhsNonContracting := [1]
  rhsNonContracting := [2]
  lhsBatch := [0]
  rhsBatch := [0]
  wf := dot_S256x1024x256_S256x256x256_S256x1024x256_2_1_1_2_0_0_wf
def dot_S256x1024x256_S512x256_S256x1024x512_2_1_01_0_n_n : DotDims S256x1024x256 S512x256 S256x1024x512 where
  lhsContracting := [2]
  rhsContracting := [1]
  lhsNonContracting := [0, 1]
  rhsNonContracting := [0]
  lhsBatch := []
  rhsBatch := []
  wf := dot_S256x1024x256_S512x256_S256x1024x512_2_1_01_0_n_n_wf

class Facts : Prop extends Facts₀ where

variable [Facts]
-- ==== Proof.NonLocal.lean ====
/-
  One member of the stack: the non-local (embedded-Gaussian) attention block on a [1024, 512] array of node
  features, written index by index on the extended reals.

  Every node is projected three ways by a linear map with bias (`proj`): values, keys and queries. Values and keys are
  max-pooled over groups of four consecutive nodes (`pool`), leaving 256 pooled nodes. A query node's logits against the
  pooled keys are inner products (`logits`); its attention weights are the softmax of the logits, shifted by the row's
  maximum taken from −∞ (`rowMax`, and `weight`); the weights average the pooled values (`mix`). The result is
  projected back to 512 channels with bias (`proj` again), normalised per channel with stored statistics
  (`(v − mean) · (γ · rsqrt (var + ε)) + β`) and added to the node's own features (`finish`).

  Nothing here is assumed finite: every operation is the extended reals' own, sums and maxima are taken in the order the
  index sets give, and no algebraic law is used.
-/
import Idealize.ShloMosaic.PureOps.Ideal

noncomputable section

open scoped BigOperators

namespace Cert.NonLocal

open Idealize.ShloMosaic

/-- −∞ as its f32 word: the value every maximum starts from. -/
abbrev negInf : EReal := Ideal.ofBits .f32 0xFF800000#32

/-- The floor added to a channel's variance before the reciprocal square root, as its f32 word. -/
abbrev eps : EReal := Ideal.ofBits .f32 0x3727C5AC#32

/-- Node `4 m + s`: the `s`-th of the four consecutive nodes pooled into group `m`. -/
def node (m : Fin 256) (s : Fin 4) : Fin 1024 := ⟨m.val * 4 + s.val, by have := m.isLt; have := s.isLt; omega⟩

/-- A linear projection with bias: row `n` of `x` against row `d` of `w`, plus `b d`. -/
def proj {N K D : ℕ} (x : Fin N → Fin K → EReal) (w : Fin D → Fin K → EReal) (b : Fin D → EReal) (n : Fin N) (d : Fin D) :
    EReal :=
  (∑ k : Fin K, x n k * w d k) + b d

/-- Max-pooling over the four consecutive nodes of group `m`, the maximum taken from −∞. -/
def pool (f : Fin 1024 → Fin 256 → EReal) (m : Fin 256) (d : Fin 256) : EReal :=
  (Finset.univ : Finset (Fin 4)).fold max negInf fun s => f (node m s) d

/-- The logit of query node `n` against pooled key `m`: their inner product over the 256 inner channels. -/
def logits (q : Fin 1024 → Fin 256 → EReal) (k : Fin 256 → Fin 256 → EReal) (n : Fin 1024) (m : Fin 256) : EReal :=
  ∑ d : Fin 256, q n d * k m d

/-- The greatest logit of node `n`, the maximum taken from −∞. -/
def rowMax (L : Fin 1024 → Fin 256 → EReal) (n : Fin 1024) : EReal :=
  (Finset.univ : Finset (Fin 256)).fold max negInf fun m => L n m

/-- The unnormalised softmax term: the exponential of a logit less the row's shift `max (−∞) (M n)`. -/
def expo (L : Fin 1024 → Fin 256 → EReal) (M : Fin 1024 → EReal) (n : Fin 1024) (m : Fin 256) : EReal :=
  Ideal.exp (L n m - max negInf (M n))

/-- The attention weight of pooled node `m` for query node `n`: its softmax term over the row's sum of terms. -/
def weight (L : Fin 1024 → Fin 256 → EReal) (M : Fin 1024 → EReal) (n : Fin 1024) (m : Fin 256) : EReal :=
  Ideal.div (expo L M n m) (∑ m' : Fin 256, expo L M n m')

/-- The attention output: the pooled values averaged with node `n`'s weights. -/
def mix (L : Fin 1024 → Fin 256 → EReal) (M : Fin 1024 → EReal) (v : Fin 256 → Fin 256 → EReal) (n : Fin 1024) (d : Fin 256) :
    EReal :=
  ∑ m : Fin 256, weight L M n m * v m d

/-- From the logits `L`, their row maxima `M` and the pooled values `v`: attention, the projection back to 512 channels
    by `Ww`, `Wb`, the per-channel normalisation with the stored `mean`, `var`, `gamma`, `beta`, and the residual `x`. -/
def finish (x : Fin 1024 → Fin 512 → EReal) (Ww : Fin 512 → Fin 256 → EReal) (Wb : Fin 512 → EReal)
    (v : Fin 256 → Fin 256 → EReal) (L : Fin 1024 → Fin 256 → EReal) (M : Fin 1024 → EReal)
    (gamma beta mean var : Fin 512 → EReal) (n : Fin 1024) (c : Fin 512) : EReal :=
  ((proj (mix L M v) Ww Wb n c - mean c) * (gamma c * Ideal.rsqrt (var c + eps)) + beta c) + x n c

/-- The whole block on one member `x`: values by `gw`, `gb`; queries by `tw`, `tb`; keys by `pw`, `pb`. -/
def block (x : Fin 1024 → Fin 512 → EReal) (gw : Fin 256 → Fin 512 → EReal) (gb : Fin 256 → EReal)
    (tw : Fin 256 → Fin 512 → EReal) (tb : Fin 256 → EReal) (pw : Fin 256 → Fin 512 → EReal) (pb : Fin 256 → EReal)
    (Ww : Fin 512 → Fin 256 → EReal) (Wb : Fin 512 → EReal) (gamma beta mean var : Fin 512 → EReal)
    (n : Fin 1024) (c : Fin 512) : EReal :=
  finish x Ww Wb (pool (proj x gw gb)) (logits (proj x tw tb) (pool (proj x pw pb)))
    (rowMax (logits (proj x tw tb) (pool (proj x pw pb)))) gamma beta mean var n c

end Cert.NonLocal

end
-- ==== Proof.RefBlock.lean ====
/-
  The reference program, read one entry at a time, is the non-local attention block of `Cert.NonLocal` on each member
  of the stack.

  The reference works on a stack of 256 members, each 1024 nodes of 512 features, whose nodes have first been
  reordered (the reordered stack is taken as given here: every statement is about its entries). On every member it
  projects each node three ways by a linear map with bias (values, keys, queries: one map at three pairs of
  weights), splits the 1024 nodes of the values and of the keys into 256 groups of four consecutive nodes and takes the
  maximum over each group from −∞, forms the logits as inner products of a node's query with the pooled keys, takes
  each row's maximum from −∞ and the greater of that and −∞ as the row's shift, exponentiates the shifted logits,
  divides each term by its row's sum (taken from zero), averages the pooled values with these weights, projects the
  result back to 512 channels with bias, subtracts the stored mean, multiplies by γ · rsqrt (variance + ε), adds β,
  and adds the node's own features.

  The proof follows the reference operation by operation at an entry given by its coordinates. First the index at
  which each operation reads its operands is computed at coordinates (node `4 m + s` of the array is entry `(m, s)` of
  its four-way split; a reduced index with a coordinate put back on the reduced axis is the full index). Then each stage
  is identified with the specification's function of the same name: the projections, their pooling (a maximum over one
  axis is the fold of `max` over that axis's coordinates), the logits, the row maxima, the softmax terms, their sums and
  the weights, the attention output, the projection back, the per-channel scale, and the normalised sum with the
  residual. No algebraic law of the extended reals is used except `0 + x = x` for the sum's starting value.
-/
import proofs.«100275_j1821066134159_2_alg».proof.Proof.Gen.ReferenceIdeal.Read
import proofs.«100275_j1821066134159_2_alg».proof.Proof.NonLocal
import Idealize.ShloMosaic.Lib.ValueIdx
import Idealize.ShloMosaic.PureOps.Ideal.Laws
import Idealize.ShloMosaic.PureOps.Reduce

noncomputable section

open scoped BigOperators

namespace Cert.RefBlock

open Cert.ReferenceIdeal Cert.ReferenceIdeal.Read Idealize.ShloMosaic Idealize.ShloMosaic.ValueIdx

/-! ## Arrays as functions of their coordinates -/

/-- A rank-2 array as a function of its two coordinates. -/
abbrev mat {D K : ℕ} (w : (⟨⟨2, ![D, K]⟩, .f32⟩ : BufTy).Contents (Elt Ideal)) : Fin D → Fin K → EReal :=
  fun d k => w (ix2 d k)

/-- A rank-1 array as a function of its coordinate. -/
abbrev vec {D : ℕ} (v : (⟨⟨1, ![D]⟩, .f32⟩ : BufTy).Contents (Elt Ideal)) : Fin D → EReal :=
  fun d => v (ix1 d)

/-- Member `b` of the gathered stack: its 1024 nodes' 512 features. -/
abbrev feat (x0 : (⟨S256x1024x512, .f32⟩ : BufTy).Contents (Elt Ideal)) (x1 : (⟨S1024, .i32⟩ : BufTy).Contents (Elt Ideal)) (b : Fin 256) : Fin 1024 → Fin 512 → EReal :=
  fun n k => val_main_v6 (F := Ideal) x0 x1 (ix3 b n k)

/-! ## Indices at coordinates

Where each operation of the reference reads its operands, at an index given by its coordinates. -/

theorem lidx7 (b : Fin 256) (n : Fin 1024) (d : Fin 256) (k : Fin 512) : lidx_main_v7 (ix3 b n d) k = ix3 b n k :=
  funext fun a => Fin.ext (by match a with | ⟨0, _⟩ => rfl | ⟨1, _⟩ => rfl | ⟨2, _⟩ => rfl)

theorem ridx7 (b : Fin 256) (n : Fin 1024) (d : Fin 256) (k : Fin 512) : ridx_main_v7 (ix3 b n d) k = ix2 d k :=
  funext fun a => Fin.ext (by match a with | ⟨0, _⟩ => rfl | ⟨1, _⟩ => rfl)

theorem idx89 (b : Fin 256) (n : Fin 1024) (d : Fin 256) : idx_main_v8 (idx_main_v9 (ix3 b n d)) = ix1 d :=
  funext fun a => Fin.ext (by match a with | ⟨0, _⟩ => rfl)

/-- Node `4 m + s` of the array is entry `(m, s)` of its four-way split. -/
theorem idx11 (b m : Fin 256) (s : Fin 4) (d : Fin 256) :
    idx_main_v11 (ix4 b m s d) = ix3 b (NonLocal.node m s) d := by
  have hb := b.isLt; have hm := m.isLt; have hs := s.isLt; have hd := d.isLt
  refine funext fun a => Fin.ext ?_
  match a with
  | ⟨0, _⟩ => show (((b.val * 256 + m.val) * 4 + s.val) * 256 + d.val) / 262144 = b.val; omega
  | ⟨1, _⟩ => show (((b.val * 256 + m.val) * 4 + s.val) * 256 + d.val) / 256 % 1024 = m.val * 4 + s.val; omega
  | ⟨2, _⟩ => show (((b.val * 256 + m.val) * 4 + s.val) * 256 + d.val) % 256 = d.val; omega

theorem lidx23 (b : Fin 256) (n : Fin 1024) (m : Fin 256) (k : Fin 256) : lidx_main_v23 (ix3 b n m) k = ix3 b n k :=
  funext fun a => Fin.ext (by match a with | ⟨0, _⟩ => rfl | ⟨1, _⟩ => rfl | ⟨2, _⟩ => rfl)

theorem ridx23 (b : Fin 256) (n : Fin 1024) (m : Fin 256) (k : Fin 256) : ridx_main_v23 (ix3 b n m) k = ix3 b m k :=
  funext fun a => Fin.ext (by match a with | ⟨0, _⟩ => rfl | ⟨1, _⟩ => rfl | ⟨2, _⟩ => rfl)

theorem idx2728 (b : Fin 256) (n : Fin 1024) (m : Fin 256) : idx_main_v27 (idx_main_v28 (ix3 b n m)) = ix2 b n :=
  funext fun a => Fin.ext (by match a with | ⟨0, _⟩ => rfl | ⟨1, _⟩ => rfl)

theorem idx31 (b : Fin 256) (n : Fin 1024) (m : Fin 256) : idx_main_v31 (ix2 b n) m = ix3 b n m :=
  funext fun a => Fin.ext (by match a with | ⟨0, _⟩ => rfl | ⟨1, _⟩ => rfl | ⟨2, _⟩ => rfl)

theorem idx3233 (b : Fin 256) (n : Fin 1024) (m : Fin 256) : idx_main_v32 (idx_main_v33 (ix3 b n m)) = ix2 b n :=
  funext fun a => Fin.ext (by match a with | ⟨0, _⟩ => rfl | ⟨1, _⟩ => rfl)

theorem lidx35 (b : Fin 256) (n : Fin 1024) (d : Fin 256) (k : Fin 256) : lidx_main_v35 (ix3 b n d) k = ix3 b n k :=
  funext fun a => Fin.ext (by match a with | ⟨0, _⟩ => rfl | ⟨1, _⟩ => rfl | ⟨2, _⟩ => rfl)

theorem ridx35 (b : Fin 256) (n : Fin 1024) (d : Fin 256) (k : Fin 256) : ridx_main_v35 (ix3 b n d) k = ix3 b k d :=
  funext fun a => Fin.ext (by match a with | ⟨0, _⟩ => rfl | ⟨1, _⟩ => rfl | ⟨2, _⟩ => rfl)

theorem lidx36 (b : Fin 256) (n : Fin 1024) (c : Fin 512) (k : Fin 256) : lidx_main_v36 (ix3 b n c) k = ix3 b n k :=
  funext fun a => Fin.ext (by match a with | ⟨0, _⟩ => rfl | ⟨1, _⟩ => rfl | ⟨2, _⟩ => rfl)

theorem ridx36 (b : Fin 256) (n : Fin 1024) (c : Fin 512) (k : Fin 256) : ridx_main_v36 (ix3 b n c) k = ix2 c k :=
  funext fun a => Fin.ext (by match a with | ⟨0, _⟩ => rfl | ⟨1, _⟩ => rfl)

theorem idx3738 (b : Fin 256) (n : Fin 1024) (c : Fin 512) : idx_main_v37 (idx_main_v38 (ix3 b n c)) = ix1 c :=
  funext fun a => Fin.ext (by match a with | ⟨0, _⟩ => rfl)

theorem idx4041 (b : Fin 256) (n : Fin 1024) (c : Fin 512) : idx_main_v40 (idx_main_v41 (ix3 b n c)) = ix1 c :=
  funext fun a => Fin.ext (by match a with | ⟨0, _⟩ => rfl)

theorem idx4748 (b : Fin 256) (n : Fin 1024) (c : Fin 512) : idx_main_v47 (idx_main_v48 (ix3 b n c)) = ix1 c :=
  funext fun a => Fin.ext (by match a with | ⟨0, _⟩ => rfl)

theorem idx5051 (b : Fin 256) (n : Fin 1024) (c : Fin 512) : idx_main_v50 (idx_main_v51 (ix3 b n c)) = ix1 c :=
  funext fun a => Fin.ext (by match a with | ⟨0, _⟩ => rfl)

/-! ## The two reductions' index sets -/

/-- The four-way split reduces over its third axis. -/
theorem red4 : S256x256x4x256.Reduces [2] S256x256x256 := by decide

/-- The logits reduce over their last axis. -/
theorem red256 : S256x1024x256.Reduces [2] S256x1024 := by decide

/-- Pooled entry `(b, m, d)` with `s` put back on the split axis is entry `(b, m, s, d)`. -/
theorem lift4 (b m d : Fin 256) (k : Fin (S256x256x4x256.size 2)) :
    red4.lift (ix3 b m d) k = ix4 b m (⟨k.val, k.isLt⟩ : Fin 4) d := by
  funext c; apply Fin.ext
  fin_cases c <;> rfl

/-- Row `(b, n)` with `m` put back on the last axis is entry `(b, n, m)`. -/
theorem lift256 (b : Fin 256) (n : Fin 1024) (k : Fin (S256x1024x256.size 2)) :
    red256.lift (ix2 b n) k = ix3 b n (⟨k.val, k.isLt⟩ : Fin 256) := by
  funext c; apply Fin.ext
  fin_cases c <;> rfl

/-- The keys' projection is the values' map at the keys' weights. -/
theorem v16_eq (x0 : (⟨S256x1024x512, .f32⟩ : BufTy).Contents (Elt Ideal)) (x1 : (⟨S1024, .i32⟩ : BufTy).Contents (Elt Ideal)) (w : (⟨S256x512, .f32⟩ : BufTy).Contents (Elt Ideal)) (bb : (⟨S256, .f32⟩ : BufTy).Contents (Elt Ideal)) :
    val_main_v16 (F := Ideal) x0 x1 w bb = val_main_v10 (F := Ideal) x0 x1 w bb := rfl

/-- The queries' projection is the values' map at the queries' weights. -/
theorem v22_eq (x0 : (⟨S256x1024x512, .f32⟩ : BufTy).Contents (Elt Ideal)) (x1 : (⟨S1024, .i32⟩ : BufTy).Contents (Elt Ideal)) (w : (⟨S256x512, .f32⟩ : BufTy).Contents (Elt Ideal)) (bb : (⟨S256, .f32⟩ : BufTy).Contents (Elt Ideal)) :
    val_main_v22 (F := Ideal) x0 x1 w bb = val_main_v10 (F := Ideal) x0 x1 w bb := rfl

/-- The keys' pooling is the values' map at the keys' weights. -/
theorem v18_eq (x0 : (⟨S256x1024x512, .f32⟩ : BufTy).Contents (Elt Ideal)) (x1 : (⟨S1024, .i32⟩ : BufTy).Contents (Elt Ideal)) (w : (⟨S256x512, .f32⟩ : BufTy).Contents (Elt Ideal)) (bb : (⟨S256, .f32⟩ : BufTy).Contents (Elt Ideal)) :
    val_main_v18 (F := Ideal) x0 x1 w bb = val_main_v12 (F := Ideal) x0 x1 w bb := rfl

/-! ## The projections of the nodes, and their pooling -/

/-- A projection of member `b`: node `n`'s features against row `d` of the weights, plus the bias. -/
theorem proj_v10 (x0 : (⟨S256x1024x512, .f32⟩ : BufTy).Contents (Elt Ideal)) (x1 : (⟨S1024, .i32⟩ : BufTy).Contents (Elt Ideal)) (w : (⟨S256x512, .f32⟩ : BufTy).Contents (Elt Ideal)) (bb : (⟨S256, .f32⟩ : BufTy).Contents (Elt Ideal)) (b : Fin 256) (n : Fin 1024) (d : Fin 256) :
    val_main_v10 (F := Ideal) x0 x1 w bb (ix3 b n d) = NonLocal.proj (feat x0 x1 b) (mat w) (vec bb) n d := by
  rw [val_main_v10_apply, val_main_v7_apply, val_main_v9_apply, val_main_v8_apply]
  simp only [lidx7, ridx7, idx89]
  rfl

/-- −∞ is the unit of the maximum a pooling starts from; the pooled projection of group `m` is the maximum of the
    projection over the group's four nodes. -/
theorem pool_v12 (x0 : (⟨S256x1024x512, .f32⟩ : BufTy).Contents (Elt Ideal)) (x1 : (⟨S1024, .i32⟩ : BufTy).Contents (Elt Ideal)) (w : (⟨S256x512, .f32⟩ : BufTy).Contents (Elt Ideal)) (bb : (⟨S256, .f32⟩ : BufTy).Contents (Elt Ideal)) (b m d : Fin 256) :
    val_main_v12 (F := Ideal) x0 x1 w bb (ix3 b m d)
      = NonLocal.pool (NonLocal.proj (feat x0 x1 b) (mat w) (vec bb)) m d := by
  unfold val_main_v12
  refine (Host.reduce_eq_fold_single (FloatOps.maximumf (F := Ideal) (φ := .f32)) _ _ _ red4 _ (ix3 b m d)).trans ?_
  have hf : (val_main_v11 (F := Ideal) x0 x1 w bb ∘ red4.lift (ix3 b m d))
      = fun s : Fin 4 => NonLocal.proj (feat x0 x1 b) (mat w) (vec bb) (NonLocal.node m s) d :=
    funext fun s => by
      show val_main_v11 (F := Ideal) x0 x1 w bb (red4.lift (ix3 b m d) s) = _
      rw [lift4, val_main_v11_apply, idx11, proj_v10]
      rfl
  exact congrArg (fun f => Finset.fold max NonLocal.negInf f (Finset.univ : Finset (Fin 4))) hf

/-! ## Logits, row maxima, softmax terms and weights -/

/-- The logits of member `b`: the queries' projection against the pooled keys' projection. -/
abbrev lgt (x0 : (⟨S256x1024x512, .f32⟩ : BufTy).Contents (Elt Ideal)) (x1 : (⟨S1024, .i32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) : Fin 1024 → Fin 256 → EReal :=
  NonLocal.logits (NonLocal.proj (feat x0 x1 b) (mat x5) (vec x6))
    (NonLocal.pool (NonLocal.proj (feat x0 x1 b) (mat x7) (vec x8)))

/-- The logit of query node `n` against pooled key `m` is their inner product over the inner channels. -/
theorem logits_v23 (x0 : (⟨S256x1024x512, .f32⟩ : BufTy).Contents (Elt Ideal)) (x1 : (⟨S1024, .i32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) (n : Fin 1024) (m : Fin 256) :
    val_main_v23 (F := Ideal) x0 x1 x5 x6 x7 x8 (ix3 b n m) = lgt x0 x1 x5 x6 x7 x8 b n m := by
  rw [val_main_v23_apply]
  simp only [lidx23, ridx23, v22_eq, v18_eq, proj_v10, pool_v12]
  rfl

/-- The row maximum of node `n`'s logits, taken from −∞. -/
theorem rowmax_v24 (x0 : (⟨S256x1024x512, .f32⟩ : BufTy).Contents (Elt Ideal)) (x1 : (⟨S1024, .i32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) (n : Fin 1024) :
    val_main_v24 (F := Ideal) x0 x1 x5 x6 x7 x8 (ix2 b n) = NonLocal.rowMax (lgt x0 x1 x5 x6 x7 x8 b) n := by
  unfold val_main_v24
  refine (Host.reduce_eq_fold_single (FloatOps.maximumf (F := Ideal) (φ := .f32)) _ _ _ red256 _ (ix2 b n)).trans ?_
  have hf : (val_main_v23 (F := Ideal) x0 x1 x5 x6 x7 x8 ∘ red256.lift (ix2 b n))
      = fun m : Fin 256 => lgt x0 x1 x5 x6 x7 x8 b n m :=
    funext fun m => by
      show val_main_v23 (F := Ideal) x0 x1 x5 x6 x7 x8 (red256.lift (ix2 b n) m) = _
      rw [lift256, logits_v23]
      rfl
  exact congrArg (fun f => Finset.fold max NonLocal.negInf f (Finset.univ : Finset (Fin 256))) hf

/-- The shift of row `n`: the greater of −∞ and the row maximum. -/
theorem shift_v26 (x0 : (⟨S256x1024x512, .f32⟩ : BufTy).Contents (Elt Ideal)) (x1 : (⟨S1024, .i32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) (n : Fin 1024) :
    val_main_v26 (F := Ideal) x0 x1 x5 x6 x7 x8 (ix2 b n) = max NonLocal.negInf (NonLocal.rowMax (lgt x0 x1 x5 x6 x7 x8 b) n) := by
  rw [val_main_v26_apply, val_main_v25_apply, val_main_cst_3_apply, rowmax_v24]
  rfl

/-- The softmax term: the exponential of the logit less the row's shift. -/
theorem expo_v30 (x0 : (⟨S256x1024x512, .f32⟩ : BufTy).Contents (Elt Ideal)) (x1 : (⟨S1024, .i32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) (n : Fin 1024) (m : Fin 256) :
    val_main_v30 (F := Ideal) x0 x1 x5 x6 x7 x8 (ix3 b n m) = NonLocal.expo (lgt x0 x1 x5 x6 x7 x8 b) (NonLocal.rowMax (lgt x0 x1 x5 x6 x7 x8 b)) n m := by
  rw [val_main_v30_apply, val_main_v29_apply, val_main_v28_apply, val_main_v27_apply, idx2728, shift_v26, logits_v23]
  rfl

/-- The row's sum of softmax terms, from zero. -/
theorem sum_v31 (x0 : (⟨S256x1024x512, .f32⟩ : BufTy).Contents (Elt Ideal)) (x1 : (⟨S1024, .i32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) (n : Fin 1024) :
    val_main_v31 (F := Ideal) x0 x1 x5 x6 x7 x8 (ix2 b n) = ∑ m : Fin 256, NonLocal.expo (lgt x0 x1 x5 x6 x7 x8 b) (NonLocal.rowMax (lgt x0 x1 x5 x6 x7 x8 b)) n m := by
  rw [val_main_v31_apply, val_main_cst_4_apply, Ideal.ofBits_def, Ideal.ofBits_zero_f32, zero_add]
  simp only [idx31, expo_v30]

/-- The attention weight: the softmax term over the row's sum. -/
theorem weight_v34 (x0 : (⟨S256x1024x512, .f32⟩ : BufTy).Contents (Elt Ideal)) (x1 : (⟨S1024, .i32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) (n : Fin 1024) (m : Fin 256) :
    val_main_v34 (F := Ideal) x0 x1 x5 x6 x7 x8 (ix3 b n m) = NonLocal.weight (lgt x0 x1 x5 x6 x7 x8 b) (NonLocal.rowMax (lgt x0 x1 x5 x6 x7 x8 b)) n m := by
  rw [val_main_v34_apply, val_main_v33_apply, val_main_v32_apply, idx3233, sum_v31, expo_v30]
  rfl

/-! ## Attention output, the projection back, normalisation and the residual -/

/-- The attention output: the pooled values averaged with node `n`'s weights. -/
theorem mix_v35 (x0 : (⟨S256x1024x512, .f32⟩ : BufTy).Contents (Elt Ideal)) (x1 : (⟨S1024, .i32⟩ : BufTy).Contents (Elt Ideal)) (x3 : (⟨S256x512, .f32⟩ : BufTy).Contents (Elt Ideal)) (x4 : (⟨S256, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (b : Fin 256) (n : Fin 1024) (d : Fin 256) :
    val_main_v35 (F := Ideal) x0 x1 x3 x4 x5 x6 x7 x8 (ix3 b n d)
      = NonLocal.mix (lgt x0 x1 x5 x6 x7 x8 b) (NonLocal.rowMax (lgt x0 x1 x5 x6 x7 x8 b)) (NonLocal.pool (NonLocal.proj (feat x0 x1 b) (mat x3) (vec x4))) n d := by
  rw [val_main_v35_apply]
  simp only [lidx35, ridx35, weight_v34, pool_v12]
  rfl

/-- The projection back to 512 channels, with bias. -/
theorem back_v39 (x0 : (⟨S256x1024x512, .f32⟩ : BufTy).Contents (Elt Ideal)) (x1 : (⟨S1024, .i32⟩ : BufTy).Contents (Elt Ideal)) (x3 : (⟨S256x512, .f32⟩ : BufTy).Contents (Elt Ideal)) (x4 : (⟨S256, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S512x256, .f32⟩ : BufTy).Contents (Elt Ideal)) (x10 : (⟨S512, .f32⟩ : BufTy).Contents (Elt Ideal)) (b : Fin 256) (n : Fin 1024) (c : Fin 512) :
    val_main_v39 (F := Ideal) x0 x1 x3 x4 x5 x6 x7 x8 x9 x10 (ix3 b n c)
      = NonLocal.proj (NonLocal.mix (lgt x0 x1 x5 x6 x7 x8 b) (NonLocal.rowMax (lgt x0 x1 x5 x6 x7 x8 b)) (NonLocal.pool (NonLocal.proj (feat x0 x1 b) (mat x3) (vec x4))))
          (mat x9) (vec x10) n c := by
  rw [val_main_v39_apply, val_main_v36_apply, val_main_v38_apply, val_main_v37_apply]
  simp only [lidx36, ridx36, idx3738, mix_v35]
  rfl

/-- The per-channel scale: γ times the reciprocal square root of the variance plus its floor. -/
theorem scale_v46 (x11 x14 : (⟨S512, .f32⟩ : BufTy).Contents (Elt Ideal)) (c : Fin 512) :
    val_main_v46 (F := Ideal) x11 x14 (ix1 c) = vec x11 c * Ideal.rsqrt (vec x14 c + NonLocal.eps) := by
  rw [val_main_v46_apply, val_main_v45_apply, val_main_v44_apply, val_main_v43_apply, val_main_cst_5_apply]
  rfl

/-- Entry `(b, n, c)` of the reference's result before the final reordering of nodes: the attention block's output
    for node `n`, channel `c` of member `b`, normalised with the stored statistics, plus the node's own feature. -/
theorem finish_v53 (x0 : (⟨S256x1024x512, .f32⟩ : BufTy).Contents (Elt Ideal)) (x1 : (⟨S1024, .i32⟩ : BufTy).Contents (Elt Ideal)) (x3 : (⟨S256x512, .f32⟩ : BufTy).Contents (Elt Ideal)) (x4 : (⟨S256, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S512x256, .f32⟩ : BufTy).Contents (Elt Ideal)) (x10 x11 x12 x13 x14 : (⟨S512, .f32⟩ : BufTy).Contents (Elt Ideal)) (b : Fin 256) (n : Fin 1024) (c : Fin 512) :
    val_main_v53 (F := Ideal) x0 x1 x3 x4 x5 x6 x7 x8 x9 x10 x11 x12 x13 x14 (ix3 b n c)
      = NonLocal.finish (feat x0 x1 b) (mat x9) (vec x10) (NonLocal.pool (NonLocal.proj (feat x0 x1 b) (mat x3) (vec x4)))
          (lgt x0 x1 x5 x6 x7 x8 b) (NonLocal.rowMax (lgt x0 x1 x5 x6 x7 x8 b)) (vec x11) (vec x12) (vec x13) (vec x14) n c := by
  rw [val_main_v53_apply, val_main_v52_apply, val_main_v49_apply, val_main_v42_apply, back_v39,
    val_main_v41_apply, val_main_v40_apply, idx4041, val_main_v48_apply, val_main_v47_apply, idx4748, scale_v46,
    val_main_v51_apply, val_main_v50_apply, idx5051]
  rfl

/-- The reference at entry `(b, n, c)`, before its final reordering of nodes, is the non-local block on member `b` of
    the gathered stack, at node `n` and channel `c`. -/
theorem ref_block (x0 : (⟨S256x1024x512, .f32⟩ : BufTy).Contents (Elt Ideal)) (x1 : (⟨S1024, .i32⟩ : BufTy).Contents (Elt Ideal)) (x3 : (⟨S256x512, .f32⟩ : BufTy).Contents (Elt Ideal)) (x4 : (⟨S256, .f32⟩ : BufTy).Contents (Elt Ideal)) (x5 : (⟨S256x512, .f32⟩ : BufTy).Contents (Elt Ideal)) (x6 : (⟨S256, .f32⟩ : BufTy).Contents (Elt Ideal)) (x7 : (⟨S256x512, .f32⟩ : BufTy).Contents (Elt Ideal)) (x8 : (⟨S256, .f32⟩ : BufTy).Contents (Elt Ideal)) (x9 : (⟨S512x256, .f32⟩ : BufTy).Contents (Elt Ideal)) (x10 x11 x12 x13 x14 : (⟨S512, .f32⟩ : BufTy).Contents (Elt Ideal)) (b : Fin 256) (n : Fin 1024) (c : Fin 512) :
    val_main_v53 (F := Ideal) x0 x1 x3 x4 x5 x6 x7 x8 x9 x10 x11 x12 x13 x14 (ix3 b n c)
      = Cert.NonLocal.block (fun n k => val_main_v6 (F := Ideal) x0 x1 (ix3 b n k))
          (fun d k => x3 (ix2 d k)) (fun d => x4 (ix1 d)) (fun d k => x5 (ix2 d k)) (fun d => x6 (ix1 d))
          (fun d k => x7 (ix2 d k)) (fun d => x8 (ix1 d)) (fun c d => x9 (ix2 c d)) (fun c => x10 (ix1 c))
          (fun c => x11 (ix1 c)) (fun c => x12 (ix1 c)) (fun c => x13 (ix1 c)) (fun c => x14 (ix1 c)) n c :=
  (finish_v53 x0 x1 x3 x4 x5 x6 x7 x8 x9 x10 x11 x12 x13 x14 b n c).trans rfl

end Cert.RefBlock

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.KernelOps.lean ====
/-
  The kernel body's non-pointwise operations, each read at an index written by its coordinates, on the extended reals.

  The body works on one member of the stack: a [1024, 512] block of node features and the whole weight arrays. Its
  four kinds of matrix product each contract ONE axis into the zero accumulator, so an entry is a plain sum over that
  axis's coordinate of products of operand entries: a row of the left operand against a row of the right one (the three
  projections, the logits, the projection back) or against a column (attention weights against pooled values). A bias
  vector is viewed as one row and repeated down the rows; a row statistic is viewed as a column and repeated along the
  columns. The [1024, 256] array of raw projections is viewed as [256, 4, 256] — node 4 m + s becomes (m, s) — and the
  maximum over the middle axis pools four consecutive nodes. Row maxima and row sums run over the second axis.
-/
import proofs.«100275_j1821066134159_2_alg».proof.Proof.Gen.KernelIdeal.Skeleton
import proofs.«100275_j1821066134159_2_alg».proof.Proof.NonLocal
import proofs.«100275_j1821066134159_2_alg».proof.Proof.LibContractSum
import proofs.«100275_j1821066134159_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelBlock

open Cert.KernelIdeal Cert.KernelIdeal.Gen Idealize.ShloMosaic Idealize.ShloMosaic.ValueIdx

/-! ## The four matrix products -/

theorem projDims_lhs_keep (i : S1024x256.Idx) (q : dot_S1024x512_S256x512_S1024x256_1_1_0_0_n_n.contr.Idx) : (dot_S1024x512_S256x512_S1024x256_1_1_0_0_n_n.lhsIdx i q 0).val = (i 0).val := by
  unfold DotDims.lhsIdx
  rw [dif_neg (show ¬(0 : Fin S1024x512.rank) ∈ dot_S1024x512_S256x512_S1024x256_1_1_0_0_n_n.lhsBatch by decide), dif_pos (show (0 : Fin S1024x512.rank) ∈ dot_S1024x512_S256x512_S1024x256_1_1_0_0_n_n.lhsNonContracting by decide)]
  rfl
theorem projDims_lhs_contr (i : S1024x256.Idx) (q : dot_S1024x512_S256x512_S1024x256_1_1_0_0_n_n.contr.Idx) : (dot_S1024x512_S256x512_S1024x256_1_1_0_0_n_n.lhsIdx i q 1).val = (q ⟨0, by decide⟩).val :=
  dot_S1024x512_S256x512_S1024x256_1_1_0_0_n_n.lhsIdx_val_of_single rfl i q
theorem projDims_rhs_keep (i : S1024x256.Idx) (q : dot_S1024x512_S256x512_S1024x256_1_1_0_0_n_n.contr.Idx) : (dot_S1024x512_S256x512_S1024x256_1_1_0_0_n_n.rhsIdx i q 0).val = (i 1).val := by
  unfold DotDims.rhsIdx
  rw [dif_neg (show ¬(0 : Fin S256x512.rank) ∈ dot_S1024x512_S256x512_S1024x256_1_1_0_0_n_n.rhsBatch by decide), dif_pos (show (0 : Fin S256x512.rank) ∈ dot_S1024x512_S256x512_S1024x256_1_1_0_0_n_n.rhsNonContracting by decide)]
  rfl
theorem projDims_rhs_contr (i : S1024x256.Idx) (q : dot_S1024x512_S256x512_S1024x256_1_1_0_0_n_n.contr.Idx) : (dot_S1024x512_S256x512_S1024x256_1_1_0_0_n_n.rhsIdx i q 1).val = (q ⟨0, by decide⟩).val :=
  dot_S1024x512_S256x512_S1024x256_1_1_0_0_n_n.rhsIdx_val_of_single rfl i q

/-- Rows of a [1024, 512] array against rows of a [256, 512] array: entry (n, d) is the sum over k of a(n, k) · w(d, k). -/
theorem matmul_rows_512 (a : FVec Ideal S1024x512 .bf16) (w : FVec Ideal S256x512 .bf16) (n : Fin 1024) (d : Fin 256) :
    matmul dot_S1024x512_S256x512_S1024x256_1_1_0_0_n_n none a w (constant S1024x256 .f32 0x00000000#32) (ix2 n d)
      = ∑ k : Fin 512, a (ix2 n k) * w (ix2 d k) := by
  refine Cert.LibContractSum.matmul_zero_sum dot_S1024x512_S256x512_S1024x256_1_1_0_0_n_n none 512 rfl rfl a w (ix2 n d) (fun k => ix2 n k) (fun k => ix2 d k)
    (fun k => ?_) (fun k => ?_)
  · have hk := contrEquiv1_symm_val dot_S1024x512_S256x512_S1024x256_1_1_0_0_n_n 512 rfl rfl k
    funext ax; apply Fin.ext
    match ax with
    | ⟨0, _⟩ => exact projDims_lhs_keep _ _
    | ⟨1, _⟩ => exact (projDims_lhs_contr _ _).trans hk
  · have hk := contrEquiv1_symm_val dot_S1024x512_S256x512_S1024x256_1_1_0_0_n_n 512 rfl rfl k
    funext ax; apply Fin.ext
    match ax with
    | ⟨0, _⟩ => exact projDims_rhs_keep _ _
    | ⟨1, _⟩ => exact (projDims_rhs_contr _ _).trans hk

theorem logitDims_lhs_keep (i : S1024x256.Idx) (q : dot_S1024x256_S256x256_S1024x256_1_1_0_0_n_n.contr.Idx) : (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem logitDims_lhs_contr (i : S1024x256.Idx) (q : dot_S1024x256_S256x256_S1024x256_1_1_0_0_n_n.contr.Idx) : (dot_S1024x256_S256x256_S1024x256_1_1_0_0_n_n.lhsIdx i q 1).val = (q ⟨0, by decide⟩).val :=
  dot_S1024x256_S256x256_S1024x256_1_1_0_0_n_n.lhsIdx_val_of_single rfl i q
theorem logitDims_rhs_keep (i : S1024x256.Idx) (q : dot_S1024x256_S256x256_S1024x256_1_1_0_0_n_n.contr.Idx) : (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem logitDims_rhs_contr (i : S1024x256.Idx) (q : dot_S1024x256_S256x256_S1024x256_1_1_0_0_n_n.contr.Idx) : (dot_S1024x256_S256x256_S1024x256_1_1_0_0_n_n.rhsIdx i q 1).val = (q ⟨0, by decide⟩).val :=
  dot_S1024x256_S256x256_S1024x256_1_1_0_0_n_n.rhsIdx_val_of_single rfl i q

/-- Rows of a [1024, 256] array against rows of a [256, 256] array: entry (n, m) is the sum over d of q(n, d) · k(m, d). -/
theorem matmul_rows_256 (a : FVec Ideal S1024x256 .bf16) (w : FVec Ideal S256x256 .bf16) (n : Fin 1024) (m : Fin 256) :
    matmul dot_S1024x256_S256x256_S1024x256_1_1_0_0_n_n none a w (constant S1024x256 .f32 0x00000000#32) (ix2 n m)
      = ∑ d : Fin 256, a (ix2 n d) * w (ix2 m d) := by
  refine Cert.LibContractSum.matmul_zero_sum dot_S1024x256_S256x256_S1024x256_1_1_0_0_n_n none 256 rfl rfl a w (ix2 n m) (fun d => ix2 n d) (fun d => ix2 m d)
    (fun k => ?_) (fun k => ?_)
  · have hk := contrEquiv1_symm_val dot_S1024x256_S256x256_S1024x256_1_1_0_0_n_n 256 rfl rfl k
    funext ax; apply Fin.ext
    match ax with
    | ⟨0, _⟩ => exact logitDims_lhs_keep _ _
    | ⟨1, _⟩ => exact (logitDims_lhs_contr _ _).trans hk
  · have hk := contrEquiv1_symm_val dot_S1024x256_S256x256_S1024x256_1_1_0_0_n_n 256 rfl rfl k
    funext ax; apply Fin.ext
    match ax with
    | ⟨0, _⟩ => exact logitDims_rhs_keep _ _
    | ⟨1, _⟩ => exact (logitDims_rhs_contr _ _).trans hk

theorem mixDims_lhs_keep (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mixDims_lhs_contr (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem mixDims_rhs_keep (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem mixDims_rhs_contr (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q

/-- Rows of a [1024, 256] array against COLUMNS of a [256, 256] array: entry (n, d) is the sum over m of a(n, m) · v(m, d). -/
theorem matmul_cols_256 (a : FVec Ideal S1024x256 .bf16) (w : FVec Ideal S256x256 .bf16) (n : Fin 1024) (d : Fin 256) :
    matmul dot_S1024x256_S256x256_S1024x256_1_0_0_1_n_n none a w (constant S1024x256 .f32 0x00000000#32) (ix2 n d)
      = ∑ m : Fin 256, a (ix2 n m) * w (ix2 m d) := by
  refine Cert.LibContractSum.matmul_zero_sum dot_S1024x256_S256x256_S1024x256_1_0_0_1_n_n none 256 rfl rfl a w (ix2 n d) (fun m => ix2 n m) (fun m => ix2 m d)
    (fun k => ?_) (fun k => ?_)
  · have hk := contrEquiv1_symm_val dot_S1024x256_S256x256_S1024x256_1_0_0_1_n_n 256 rfl rfl k
    funext ax; apply Fin.ext
    match ax with
    | ⟨0, _⟩ => exact mixDims_lhs_keep _ _
    | ⟨1, _⟩ => exact (mixDims_lhs_contr _ _).trans hk
  · have hk := contrEquiv1_symm_val dot_S1024x256_S256x256_S1024x256_1_0_0_1_n_n 256 rfl rfl k
    funext ax; apply Fin.ext
    match ax with
    | ⟨0, _⟩ => exact (mixDims_rhs_contr _ _).trans hk
    | ⟨1, _⟩ => exact mixDims_rhs_keep _ _

theorem backDims_lhs_keep (i : S1024x512.Idx) (q : dot_S1024x256_S512x256_S1024x512_1_1_0_0_n_n.contr.Idx) : (dot_S1024x256_S512x256_S1024x512_1_1_0_0_n_n.lhsIdx i q 0).val = (i 0).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl
theorem backDims_lhs_contr (i : S1024x512.Idx) (q : dot_S1024x256_S512x256_S1024x512_1_1_0_0_n_n.contr.Idx) : (dot_S1024x256_S512x256_S1024x512_1_1_0_0_n_n.lhsIdx i q 1).val = (q ⟨0, by decide⟩).val :=
  dot_S1024x256_S512x256_S1024x512_1_1_0_0_n_n.lhsIdx_val_of_single rfl i q
theorem backDims_rhs_keep (i : S1024x512.Idx) (q : dot_S1024x256_S512x256_S1024x512_1_1_0_0_n_n.contr.Idx) : (dot_S1024x256_S512x256_S1024x512_1_1_0_0_n_n.rhsIdx i q 0).val = (i 1).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl
theorem backDims_rhs_contr (i : S1024x512.Idx) (q : dot_S1024x256_S512x256_S1024x512_1_1_0_0_n_n.contr.Idx) : (dot_S1024x256_S512x256_S1024x512_1_1_0_0_n_n.rhsIdx i q 1).val = (q ⟨0, by decide⟩).val :=
  dot_S1024x256_S512x256_S1024x512_1_1_0_0_n_n.rhsIdx_val_of_single rfl i q

/-- Rows of a [1024, 256] array against rows of a [512, 256] array: entry (n, c) is the sum over d of y(n, d) · w(c, d). -/
theorem matmul_rows_back (a : FVec Ideal S1024x256 .bf16) (w : FVec Ideal S512x256 .bf16) (n : Fin 1024) (c : Fin 512) :
    matmul dot_S1024x256_S512x256_S1024x512_1_1_0_0_n_n none a w (constant S1024x512 .f32 0x00000000#32) (ix2 n c)
      = ∑ d : Fin 256, a (ix2 n d) * w (ix2 c d) := by
  refine Cert.LibContractSum.matmul_zero_sum dot_S1024x256_S512x256_S1024x512_1_1_0_0_n_n none 256 rfl rfl a w (ix2 n c) (fun d => ix2 n d) (fun d => ix2 c d)
    (fun k => ?_) (fun k => ?_)
  · have hk := contrEquiv1_symm_val dot_S1024x256_S512x256_S1024x512_1_1_0_0_n_n 256 rfl rfl k
    funext ax; apply Fin.ext
    match ax with
    | ⟨0, _⟩ => exact backDims_lhs_keep _ _
    | ⟨1, _⟩ => exact (backDims_lhs_contr _ _).trans hk
  · have hk := contrEquiv1_symm_val dot_S1024x256_S512x256_S1024x512_1_1_0_0_n_n 256 rfl rfl k
    funext ax; apply Fin.ext
    match ax with
    | ⟨0, _⟩ => exact backDims_rhs_keep _ _
    | ⟨1, _⟩ => exact (backDims_rhs_contr _ _).trans hk

/-! ## Bias rows and statistic columns -/

/-- A 256-vector viewed as one row and repeated down 1024 rows reads, at (n, d), the vector at d. -/
theorem row_256 (v : Vec Ideal S256 .f32) (n : Fin 1024) (d : Fin 256) :
    broadcastTo S1024x256 (shapeCast S1x256 v shapeCasts_S256_S1x256) broadcasts_S1x256_S1024x256 (ix2 n d) = v (ix1 d) := by
  rw [broadcastTo_1b_ab_apply, shapeCast_a_1a_apply]

/-- A [1, 512] row repeated down 1024 rows reads, at (n, c), the row at (0, c). -/
theorem row_512 (v : FVec Ideal S1x512 .f32) (n : Fin 1024) (c : Fin 512) :
    broadcastTo S1024x512 v broadcasts_S1x512_S1024x512 (ix2 n c) = v (ix2 (0 : Fin 1) c) :=
  broadcastTo_1b_ab_apply v broadcasts_S1x512_S1024x512 n c

/-- A 512-vector viewed as one row reads, at (0, c), the vector at c. -/
theorem as_row_512 (v : Vec Ideal S512 .f32) (c : Fin 512) :
    shapeCast S1x512 v shapeCasts_S512_S1x512 (ix2 (0 : Fin 1) c) = v (ix1 c) :=
  shapeCast_a_1a_apply v shapeCasts_S512_S1x512 0 c

/-- A 1024-vector of row statistics viewed as a column and repeated along 256 columns reads, at (n, m), the vector at n. -/
theorem col_1024 (v : FVec Ideal S1024 .f32) (n : Fin 1024) (m : Fin 256) :
    broadcastTo S1024x256 (shapeCast S1024x1 v shapeCasts_S1024_S1024x1) broadcasts_S1024x1_S1024x256 (ix2 n m) = v (ix1 n) := by
  rw [Cert.Lib.ColumnLayout.broadcastTo_a1_ab_apply _ _ n m (0 : Fin 1), Cert.Lib.ColumnLayout.shapeCast_a_a1_apply]

end Cert.KernelBlock

end
-- ==== Proof.KernelReduce.lean ====
/-
  The kernel body's three reductions, each read at an index written by its coordinates, on the extended reals.

  The raw projections form a [1024, 256] array; viewed as [256, 4, 256], node 4 m + s sits at (m, s), and the maximum
  over the middle axis, taken from −∞, pools the four consecutive nodes of group m. The logits form a [1024, 256] array;
  the maximum over its second axis, taken from −∞, is a node's greatest logit, and the sum over its second axis of the
  exponentials is the softmax's normaliser.
-/
import proofs.«100275_j1821066134159_2_alg».proof.Proof.Gen.KernelIdeal.Skeleton
import proofs.«100275_j1821066134159_2_alg».proof.Proof.NonLocal
import Idealize.ShloMosaic.Lib.ValueIdx
import Idealize.ShloMosaic.Lib.Pipeline.Value
import Idealize.ShloMosaic.PureOps.Ideal.Laws

noncomputable section

open scoped BigOperators

namespace Cert.KernelBlock

open Cert.KernelIdeal Cert.KernelIdeal.Gen Idealize.ShloMosaic Idealize.ShloMosaic.ValueIdx

/-- In the [256, 4, 256] view, the index over (m, d) with s on the middle axis is (m, s, d). -/
theorem lift_pool (m d : Fin 256) (s : Fin 4) :
    reduces_S256x4x256_S256x256.lift (ix2 m d) s = ix3 m s d :=
  funext fun a => Fin.ext (by match a with | ⟨0, _⟩ => rfl | ⟨1, _⟩ => rfl | ⟨2, _⟩ => rfl)

/-- In a [1024, 256] array, the index over n with m on the second axis is (n, m). -/
theorem lift_row (n : Fin 1024) (m : Fin 256) :
    reduces_S1024x256_S1024.lift (ix1 n) m = ix2 n m :=
  funext fun a => Fin.ext (by match a with | ⟨0, _⟩ => rfl | ⟨1, _⟩ => rfl)

/-- The [256, 4, 256] view of a [1024, 256] array reads, at (m, s, d), the array at (4 m + s, d). -/
theorem view_pool (f : FVec Ideal S1024x256 .f32) (m d : Fin 256) (s : Fin 4) :
    shapeCast S256x4x256 f shapeCasts_S1024x256_S256x4x256 (ix3 m s d) = f (ix2 (NonLocal.node m s) d) :=
  shapeCast_apply f shapeCasts_S1024x256_S256x4x256 (ix3 m s d) (ix2 (NonLocal.node m s) d) (by
    rw [Shape.rowMajor_val_two, Shape.rowMajor_val_three]; rfl)

/-- Max-pooling: the maximum over the middle axis of the [256, 4, 256] view, from −∞, at (m, d). -/
theorem pool_apply (f : FVec Ideal S1024x256 .f32) (m d : Fin 256) :
    multiReduction .maximumf [1] S256x256 (shapeCast S256x4x256 f shapeCasts_S1024x256_S256x4x256) 0xFF800000#32
        reduces_S256x4x256_S256x256 (.inl rfl) rfl (ix2 m d)
      = NonLocal.pool (fun n d => f (ix2 n d)) m d := by
  refine (Ideal.multiReduction_maximumf_single (shapeCast S256x4x256 f shapeCasts_S1024x256_S256x4x256) 0xFF800000#32
    reduces_S256x4x256_S256x256 (.inl rfl) rfl (ix2 m d)).trans ?_
  unfold NonLocal.pool
  refine Finset.fold_congr fun s _ => ?_
  exact (congrArg (shapeCast S256x4x256 f shapeCasts_S1024x256_S256x4x256) (lift_pool m d s)).trans (view_pool f m d s)

/-- A node's greatest logit: the maximum over the second axis, from −∞, at n. -/
theorem rowMax_apply (L : FVec Ideal S1024x256 .f32) (n : Fin 1024) :
    multiReduction .maximumf [1] S1024 L 0xFF800000#32 reduces_S1024x256_S1024 (.inl rfl) rfl (ix1 n)
      = NonLocal.rowMax (fun n m => L (ix2 n m)) n := by
  refine (Ideal.multiReduction_maximumf_single L 0xFF800000#32 reduces_S1024x256_S1024 (.inl rfl) rfl (ix1 n)).trans ?_
  unfold NonLocal.rowMax
  refine Finset.fold_congr fun k _ => ?_
  exact congrArg L (lift_row n k)

/-- The softmax's normaliser: the sum over the second axis at n. -/
theorem rowSum_apply (E : FVec Ideal S1024x256 .f32) (n : Fin 1024) :
    multiReduction .add [1] S1024 E 0x00000000#32 reduces_S1024x256_S1024 (.inl rfl) rfl (ix1 n)
      = ∑ m : Fin 256, E (ix2 n m) := by
  refine (Ideal.multiReduction_add_single E 0x00000000#32 reduces_S1024x256_S1024 (.inl rfl) rfl (ix1 n)).trans ?_
  exact Finset.sum_congr rfl fun k _ => congrArg E (lift_row n k)

end Cert.KernelBlock

end
-- ==== Proof.KernelPayload.lean ====
/-
  The kernel body's arithmetic, read at an index: from the loaded block of node features and the loaded weights to the
  value stored at node n, channel c.

  The body first computes, from the block x and the weights, the pooled values, the logits of every node against the
  pooled keys, and each node's greatest logit. The stored value is then built from those three: the softmax terms
  exp(logit − shift), their row sums, the attention weights, the weighted average of the pooled values, its projection
  back to 512 channels with bias, the per-channel normalisation and the residual. Each intermediate array is named here
  and read at an index written by its coordinates; together they say the stored value is the attention block of the
  specification applied to the block x.
-/
import proofs.«100275_j1821066134159_2_alg».proof.Proof.KernelOps
import proofs.«100275_j1821066134159_2_alg».proof.Proof.KernelReduce

noncomputable section

open scoped BigOperators

namespace Cert.KernelBlock

open Cert.KernelIdeal Cert.KernelIdeal.Gen Idealize.ShloMosaic Idealize.ShloMosaic.ValueIdx

/-! ## Projections, pooling, logits -/

/-- The block of node features, its leading unit axis dropped, at (n, k). -/
theorem pay3_apply (x0 : Vec Ideal S1x1024x512 .f32) (n : Fin 1024) (k : Fin 512) :
    k0_pay3 x0 (ix2 n k) = x0 (ix3 (0 : Fin 1) n k) := by
  unfold k0_pay3 k0_pay2
  exact shapeCast_1ab_ab_apply x0 shapeCasts_S1x1024x512_S1024x512 n k

/-- A projection of the block by a [256, 512] weight with a bias row. -/
def projArr (x0 : Vec Ideal S1x1024x512 .f32) (w : Vec Ideal S256x512 .f32) (b : Vec Ideal S256 .f32) : FVec Ideal S1024x256 .f32 :=
  addf (matmul dot_S1024x512_S256x512_S1024x256_1_1_0_0_n_n none (k0_pay3 x0) (truncf .bf16 w bitsLt_bf16_f32)
      (constant S1024x256 .f32 0x00000000#32))
    (broadcastTo S1024x256 (shapeCast S1x256 b shapeCasts_S256_S1x256) broadcasts_S1x256_S1024x256)

theorem projArr_apply (x0 : Vec Ideal S1x1024x512 .f32) (w : Vec Ideal S256x512 .f32) (b : Vec Ideal S256 .f32)
    (n : Fin 1024) (d : Fin 256) :
    projArr x0 w b (ix2 n d)
      = NonLocal.proj (fun n k => x0 (ix3 (0 : Fin 1) n k)) (fun d k => w (ix2 d k)) (fun d => b (ix1 d)) n d := by
  unfold projArr NonLocal.proj
  rw [addf_apply, row_256, matmul_rows_512]
  refine congrArg (· + b (ix1 d)) (Finset.sum_congr rfl fun k _ => ?_)
  rw [pay3_apply]; rfl

/-- Max-pooling of a [1024, 256] array over groups of four consecutive rows, from −∞. -/
def poolArr (f : FVec Ideal S1024x256 .f32) : FVec Ideal S256x256 .f32 :=
  multiReduction .maximumf [1] S256x256 (shapeCast S256x4x256 f shapeCasts_S1024x256_S256x4x256) 0xFF800000#32
    reduces_S256x4x256_S256x256 (.inl rfl) rfl

theorem poolArr_apply (f : FVec Ideal S1024x256 .f32) (m d : Fin 256) :
    poolArr f (ix2 m d) = NonLocal.pool (fun n d => f (ix2 n d)) m d := pool_apply f m d

/-- The pooled values are the pooled projection by the first weight and bias. -/
theorem pay6_eq (x0 : Vec Ideal S1x1024x512 .f32) (w : Vec Ideal S256x512 .f32) (b : Vec Ideal S256 .f32) :
    k0_pay6 x0 w b = truncf .bf16 (poolArr (projArr x0 w b)) bitsLt_bf16_f32 := rfl

/-- The pooled values, at (m, d). -/
theorem pay6_apply (x0 : Vec Ideal S1x1024x512 .f32) (w : Vec Ideal S256x512 .f32) (b : Vec Ideal S256 .f32) (m d : Fin 256) :
    k0_pay6 x0 w b (ix2 m d)
      = NonLocal.pool (NonLocal.proj (fun n k => x0 (ix3 (0 : Fin 1) n k)) (fun d k => w (ix2 d k)) (fun d => b (ix1 d))) m d := by
  rw [pay6_eq, truncf_apply, poolArr_apply]
  exact congrArg (fun f => NonLocal.pool f m d) (funext fun n' => funext fun d' => projArr_apply x0 w b n' d')

/-- The logits are the queries' projection against the pooled keys' projection, row by row. -/
theorem pay7_eq (x0 : Vec Ideal S1x1024x512 .f32) (tw pw : Vec Ideal S256x512 .f32) (tb pb : Vec Ideal S256 .f32) :
    k0_pay7 x0 tw pw tb pb
      = matmul dot_S1024x256_S256x256_S1024x256_1_1_0_0_n_n none (truncf .bf16 (projArr x0 tw tb) bitsLt_bf16_f32)
          (truncf .bf16 (poolArr (projArr x0 pw pb)) bitsLt_bf16_f32) (constant S1024x256 .f32 0x00000000#32) := rfl

/-- The logits of node n against pooled key m. -/
theorem pay7_apply (x0 : Vec Ideal S1x1024x512 .f32) (tw pw : Vec Ideal S256x512 .f32) (tb pb : Vec Ideal S256 .f32)
    (n : Fin 1024) (m : Fin 256) :
    k0_pay7 x0 tw pw tb pb (ix2 n m)
      = NonLocal.logits (NonLocal.proj (fun n k => x0 (ix3 (0 : Fin 1) n k)) (fun d k => tw (ix2 d k)) (fun d => tb (ix1 d)))
          (NonLocal.pool (NonLocal.proj (fun n k => x0 (ix3 (0 : Fin 1) n k)) (fun d k => pw (ix2 d k)) (fun d => pb (ix1 d)))) n m := by
  rw [pay7_eq, matmul_rows_256]
  unfold NonLocal.logits
  refine Finset.sum_congr rfl fun d _ => ?_
  rw [truncf_apply, truncf_apply, projArr_apply, poolArr_apply]
  exact congrArg (fun f => _ * NonLocal.pool f m d) (funext fun n' => funext fun d' => projArr_apply x0 pw pb n' d')

/-- Node n's greatest logit. -/
theorem pay8_apply (x0 : Vec Ideal S1x1024x512 .f32) (tw pw : Vec Ideal S256x512 .f32) (tb pb : Vec Ideal S256 .f32) (n : Fin 1024) :
    k0_pay8 x0 tw pw tb pb (ix1 n) = NonLocal.rowMax (fun n m => k0_pay7 x0 tw pw tb pb (ix2 n m)) n := by
  unfold k0_pay8
  exact rowMax_apply _ n

/-! ## From the logits to the stored value -/

/-- The array of softmax terms exp(logit − shift), the shift a node's greatest logit floored at −∞. -/
def expoArr (L : FVec Ideal S1024x256 .f32) (Mx : FVec Ideal S1024 .f32) : FVec Ideal S1024x256 .f32 :=
  exp (subf L (broadcastTo S1024x256 (shapeCast S1024x1 (maximumf (broadcast S1024 (Scalar.ofBits .f32 0xFF800000#32)) Mx)
    shapeCasts_S1024_S1024x1) broadcasts_S1024x1_S1024x256))

theorem expoArr_apply (L : FVec Ideal S1024x256 .f32) (Mx : FVec Ideal S1024 .f32) (n : Fin 1024) (m : Fin 256) :
    expoArr L Mx (ix2 n m) = NonLocal.expo (fun n m => L (ix2 n m)) (fun n => Mx (ix1 n)) n m := by
  unfold expoArr NonLocal.expo
  show Ideal.exp (L (ix2 n m) - broadcastTo S1024x256 (shapeCast S1024x1 (maximumf (broadcast S1024 (Scalar.ofBits .f32 0xFF800000#32)) Mx)
    shapeCasts_S1024_S1024x1) broadcasts_S1024x1_S1024x256 (ix2 n m)) = _
  rw [col_1024]; rfl

/-- The array of attention weights: each softmax term over its row's sum. -/
def weightArr (L : FVec Ideal S1024x256 .f32) (Mx : FVec Ideal S1024 .f32) : FVec Ideal S1024x256 .f32 :=
  divf (expoArr L Mx) (broadcastTo S1024x256 (shapeCast S1024x1 (multiReduction .add [1] S1024 (expoArr L Mx) 0x00000000#32
    reduces_S1024x256_S1024 (.inl rfl) rfl) shapeCasts_S1024_S1024x1) broadcasts_S1024x1_S1024x256)

theorem weightArr_apply (L : FVec Ideal S1024x256 .f32) (Mx : FVec Ideal S1024 .f32) (n : Fin 1024) (m : Fin 256) :
    weightArr L Mx (ix2 n m) = NonLocal.weight (fun n m => L (ix2 n m)) (fun n => Mx (ix1 n)) n m := by
  unfold weightArr NonLocal.weight
  rw [divf_apply, col_1024, rowSum_apply, expoArr_apply]
  exact congrArg (Ideal.div _) (Finset.sum_congr rfl fun m' _ => expoArr_apply L Mx n m')

/-- The attention output: the weights against the pooled values. -/
def mixArr (L : FVec Ideal S1024x256 .f32) (Mx : FVec Ideal S1024 .f32) (v : FVec Ideal S256x256 .bf16) : FVec Ideal S1024x256 .f32 :=
  matmul dot_S1024x256_S256x256_S1024x256_1_0_0_1_n_n none (truncf .bf16 (weightArr L Mx) bitsLt_bf16_f32) v
    (constant S1024x256 .f32 0x00000000#32)

theorem mixArr_apply (L : FVec Ideal S1024x256 .f32) (Mx : FVec Ideal S1024 .f32) (v : FVec Ideal S256x256 .bf16)
    (n : Fin 1024) (d : Fin 256) :
    mixArr L Mx v (ix2 n d) = NonLocal.mix (fun n m => L (ix2 n m)) (fun n => Mx (ix1 n)) (fun m d => v (ix2 m d)) n d := by
  unfold mixArr NonLocal.mix
  refine (matmul_cols_256 _ _ n d).trans (Finset.sum_congr rfl fun m _ => ?_)
  exact congrArg (· * v (ix2 m d)) (weightArr_apply L Mx n m)

/-- The projection back to 512 channels, with its bias row. -/
def backArr (L : FVec Ideal S1024x256 .f32) (Mx : FVec Ideal S1024 .f32) (v : FVec Ideal S256x256 .bf16)
    (Ww : FVec Ideal S512x256 .bf16) (Wb : FVec Ideal S1x512 .f32) : FVec Ideal S1024x512 .f32 :=
  addf (matmul dot_S1024x256_S512x256_S1024x512_1_1_0_0_n_n none (truncf .bf16 (mixArr L Mx v) bitsLt_bf16_f32) Ww
    (constant S1024x512 .f32 0x00000000#32)) (broadcastTo S1024x512 Wb broadcasts_S1x512_S1024x512)

theorem backArr_apply (L : FVec Ideal S1024x256 .f32) (Mx : FVec Ideal S1024 .f32) (v : FVec Ideal S256x256 .bf16)
    (Ww : FVec Ideal S512x256 .bf16) (Wb : FVec Ideal S1x512 .f32) (n : Fin 1024) (c : Fin 512) :
    backArr L Mx v Ww Wb (ix2 n c)
      = NonLocal.proj (NonLocal.mix (fun n m => L (ix2 n m)) (fun n => Mx (ix1 n)) (fun m d => v (ix2 m d)))
          (fun c d => Ww (ix2 c d)) (fun c => Wb (ix2 (0 : Fin 1) c)) n c := by
  unfold backArr NonLocal.proj
  rw [addf_apply, row_512, matmul_rows_back]
  refine congrArg (· + Wb (ix2 (0 : Fin 1) c)) (Finset.sum_congr rfl fun d _ => ?_)
  exact congrArg (· * Ww (ix2 c d)) (mixArr_apply L Mx v n d)

/-- The per-channel scale γ · rsqrt(var + ε), as one row. -/
def scaleRow (gamma var : Vec Ideal S512 .f32) : FVec Ideal S1x512 .f32 :=
  mulf (shapeCast S1x512 gamma shapeCasts_S512_S1x512)
    (rsqrt (addf (shapeCast S1x512 var shapeCasts_S512_S1x512) (broadcast S1x512 (Scalar.ofBits .f32 0x3727C5AC#32))))

theorem scaleRow_apply (gamma var : Vec Ideal S512 .f32) (c : Fin 512) :
    scaleRow gamma var (ix2 (0 : Fin 1) c) = gamma (ix1 c) * Ideal.rsqrt (var (ix1 c) + NonLocal.eps) := by
  unfold scaleRow
  show shapeCast S1x512 gamma shapeCasts_S512_S1x512 (ix2 (0 : Fin 1) c)
      * Ideal.rsqrt (shapeCast S1x512 var shapeCasts_S512_S1x512 (ix2 (0 : Fin 1) c) + NonLocal.eps) = _
  rw [as_row_512, as_row_512]

/-- The stored value is the normalised, shifted projection plus the block, its leading unit axis restored. -/
theorem pay1_eq (v1 : FVec Ideal S1024x512 .f32) (v10 : FVec Ideal S512x256 .bf16) (v18 : FVec Ideal S1x512 .f32)
    (v34 : FVec Ideal S256x256 .bf16) (v35 : FVec Ideal S1024x256 .f32) (v36 : FVec Ideal S1024 .f32)
    (v53 v55 v57 v59 : Vec Ideal S512 .f32) :
    k0_pay1 v1 v10 v18 v34 v35 v36 v53 v55 v57 v59
      = shapeCast S1x1024x512 (addf (addf (mulf (subf (backArr v35 v36 v34 v10 v18)
            (broadcastTo S1024x512 (shapeCast S1x512 v57 shapeCasts_S512_S1x512) broadcasts_S1x512_S1024x512))
            (broadcastTo S1024x512 (scaleRow v53 v59) broadcasts_S1x512_S1024x512))
            (broadcastTo S1024x512 (shapeCast S1x512 v55 shapeCasts_S512_S1x512) broadcasts_S1x512_S1024x512)) v1)
          shapeCasts_S1024x512_S1x1024x512 := rfl

/-- The stored value at node n, channel c, from the block (less its unit axis), the back-projection weights, the pooled
    values, the logits, the greatest logits and the four normalisation vectors. -/
theorem pay1_apply (v1 : FVec Ideal S1024x512 .f32) (v10 : FVec Ideal S512x256 .bf16) (v18 : FVec Ideal S1x512 .f32)
    (v34 : FVec Ideal S256x256 .bf16) (v35 : FVec Ideal S1024x256 .f32) (v36 : FVec Ideal S1024 .f32)
    (v53 v55 v57 v59 : Vec Ideal S512 .f32) (n : Fin 1024) (c : Fin 512) :
    k0_pay1 v1 v10 v18 v34 v35 v36 v53 v55 v57 v59 (ix3 (0 : Fin 1) n c)
      = NonLocal.finish (fun n c => v1 (ix2 n c)) (fun c d => v10 (ix2 c d)) (fun c => v18 (ix2 (0 : Fin 1) c))
          (fun m d => v34 (ix2 m d)) (fun n m => v35 (ix2 n m)) (fun n => v36 (ix1 n))
          (fun c => v53 (ix1 c)) (fun c => v55 (ix1 c)) (fun c => v57 (ix1 c)) (fun c => v59 (ix1 c)) n c := by
  rw [pay1_eq, shapeCast_ab_1ab_apply, addf_apply, addf_apply, mulf_apply, subf_apply, row_512, row_512, row_512,
    as_row_512, as_row_512, scaleRow_apply, backArr_apply]
  rfl

end Cert.KernelBlock

end
-- ==== Proof.Stack.lean ====
/-
  The attention block applied to every member of a stack of 256 arrays of node features at once: member b of the
  result is the block of member b of the stack, all members sharing the weights. Arrays are indexed by their
  coordinates, a [256, 1024, 512] array at (member, node, channel).
-/
import proofs.«100275_j1821066134159_2_alg».proof.Proof.NonLocal
import Idealize.ShloMosaic.Lib.ValueIdx

noncomputable section

namespace Cert.NonLocal

open Idealize.ShloMosaic Idealize.ShloMosaic.ValueIdx

/-- The block on member `i 0` of the stack `X`, at node `i 1` and channel `i 2`. -/
def stack (X : (⟨3, ![256, 1024, 512]⟩ : Shape).Idx → EReal)
    (gw : (⟨2, ![256, 512]⟩ : Shape).Idx → EReal) (gb : (⟨1, ![256]⟩ : Shape).Idx → EReal)
    (tw : (⟨2, ![256, 512]⟩ : Shape).Idx → EReal) (tb : (⟨1, ![256]⟩ : Shape).Idx → EReal)
    (pw : (⟨2, ![256, 512]⟩ : Shape).Idx → EReal) (pb : (⟨1, ![256]⟩ : Shape).Idx → EReal)
    (Ww : (⟨2, ![512, 256]⟩ : Shape).Idx → EReal) (Wb gamma beta mean var : (⟨1, ![512]⟩ : Shape).Idx → EReal) :
    (⟨3, ![256, 1024, 512]⟩ : Shape).Idx → EReal :=
  fun i => block (fun n k => X (ix3 (n0 := 256) (i 0) n k)) (fun d k => gw (ix2 d k)) (fun d => gb (ix1 d))
    (fun d k => tw (ix2 d k)) (fun d => tb (ix1 d)) (fun d k => pw (ix2 d k)) (fun d => pb (ix1 d))
    (fun c d => Ww (ix2 c d)) (fun c => Wb (ix1 c)) (fun c => gamma (ix1 c)) (fun c => beta (ix1 c))
    (fun c => mean (ix1 c)) (fun c => var (ix1 c)) (i 1) (i 2)

/-- At (b, n, c) the stack's result is the block of member b at (n, c). -/
theorem stack_apply (X : (⟨3, ![256, 1024, 512]⟩ : Shape).Idx → EReal)
    (gw : (⟨2, ![256, 512]⟩ : Shape).Idx → EReal) (gb : (⟨1, ![256]⟩ : Shape).Idx → EReal)
    (tw : (⟨2, ![256, 512]⟩ : Shape).Idx → EReal) (tb : (⟨1, ![256]⟩ : Shape).Idx → EReal)
    (pw : (⟨2, ![256, 512]⟩ : Shape).Idx → EReal) (pb : (⟨1, ![256]⟩ : Shape).Idx → EReal)
    (Ww : (⟨2, ![512, 256]⟩ : Shape).Idx → EReal) (Wb gamma beta mean var : (⟨1, ![512]⟩ : Shape).Idx → EReal)
    (b : Fin 256) (n : Fin 1024) (c : Fin 512) :
    stack X gw gb tw tb pw pb Ww Wb gamma beta mean var (ix3 b n c)
      = block (fun n k => X (ix3 b n k)) (fun d k => gw (ix2 d k)) (fun d => gb (ix1 d))
          (fun d k => tw (ix2 d k)) (fun d => tb (ix1 d)) (fun d k => pw (ix2 d k)) (fun d => pb (ix1 d))
          (fun c d => Ww (ix2 c d)) (fun c => Wb (ix1 c)) (fun c => gamma (ix1 c)) (fun c => beta (ix1 c))
          (fun c => mean (ix1 c)) (fun c => var (ix1 c)) n c := rfl

end Cert.NonLocal

end
-- ==== Proof.KernelArray.lean ====
/-
  From the blocks to the array: what the kernel leaves in its output array.

  The kernel runs once per member of the stack: at point t it is handed member t of the gathered [256, 1024, 512] stack
  as a [1, 1024, 512] block and every weight array whole, and writes block t of the output. The value it stores at
  (0, n, c) is the attention block of the specification applied to member t (the body's arithmetic, read at an index);
  so what point t writes back is block t of ONE function of the arrays the region finds — the block applied to every
  member of the stack. The 256 output blocks tile the output array (index (b, n, c) lies in point b's block), so the
  array ends holding that function.
-/
import proofs.«100275_j1821066134159_2_alg».proof.Proof.Gen.KernelIdeal.Frame
import proofs.«100275_j1821066134159_2_alg».proof.Proof.KernelPayload
import proofs.«100275_j1821066134159_2_alg».proof.Proof.Stack
import Idealize.ShloMosaic.Lib.Pipeline.Value
import Idealize.ShloMosaic.Lib.ValueIdx

set_option maxRecDepth 16384

noncomputable section

namespace Cert.KernelBlock

open Cert.KernelIdeal Cert.KernelIdeal.Gen Idealize.ShloMosaic Idealize.ShloMosaic.ValueIdx Idealize.ShloMosaic.TcCoe
open Idealize.SL.Sem
open Idealize.ShloMosaic.Pipeline (Dat)

/-! ## The stored block at an index -/

theorem off3 : (![0, 0, 0] : Fin 3 → Nat) = fun _ => 0 := funext fun a => by fin_cases a <;> rfl
theorem off2 : (![0, 0] : Fin 2 → Nat) = fun _ => 0 := funext fun a => by fin_cases a <;> rfl
theorem off1 : (![0] : Fin 1 → Nat) = fun _ => 0 := funext fun a => by fin_cases a <;> rfl

/-- What the body leaves in the output block at (0, n, c): the attention block of the loaded member at (n, c). -/
theorem body_apply (x0 : Vec Ideal S1x1024x512 .f32) (x1 : Vec Ideal S256x512 .f32) (x2 : Vec Ideal S256 .f32) (x3 : Vec Ideal S256x512 .f32) (x4 : Vec Ideal S256 .f32) (x5 : Vec Ideal S256x512 .f32) (x6 : Vec Ideal S256 .f32) (x7 : Vec Ideal S512x256 .f32) (x8 : Vec Ideal S512 .f32) (x9 : Vec Ideal S512 .f32) (x10 : Vec Ideal S512 .f32) (x11 : Vec Ideal S512 .f32) (x12 : Vec Ideal S512 .f32)
    (n : Fin 1024) (c : Fin 512) :
    out0_13 x0 x1 x2 x3 x4 x5 x6 x7 x8 x9 x10 x11 x12 (ix3 (0 : Fin 1) n c)
      = NonLocal.block (fun n k => x0 (ix3 (0 : Fin 1) n k)) (fun d k => x1 (ix2 d k)) (fun d => x2 (ix1 d))
        (fun d k => x3 (ix2 d k)) (fun d => x4 (ix1 d)) (fun d k => x5 (ix2 d k)) (fun d => x6 (ix1 d))
        (fun c d => x7 (ix2 c d)) (fun c => x8 (ix1 c)) (fun c => x9 (ix1 c)) (fun c => x10 (ix1 c))
        (fun c => x11 (ix1 c)) (fun c => x12 (ix1 c)) n c := by
  unfold out0_13
  rw [View.canon_unit_zero off3]
  simp only [View.ld_unit_zero (S := S1x1024x512) off3, View.ld_unit_zero (S := S256x512) off2,
    View.ld_unit_zero (S := S512x256) off2, View.ld_unit_zero (S := S256) off1, View.ld_unit_zero (S := S512) off1]
  rw [pay1_apply]
  unfold NonLocal.block
  have e2 : (fun n c => k0_pay2 x0 (ix2 n c)) = fun n c => x0 (ix3 (0 : Fin 1) n c) :=
    funext fun n => funext fun c => pay3_apply x0 n c
  have e4 : (fun c d => k0_pay4 x7 (ix2 c d)) = fun c d => x7 (ix2 c d) := rfl
  have e5 : (fun c => k0_pay5 x8 (ix2 (0 : Fin 1) c)) = fun c => x8 (ix1 c) :=
    funext fun c => as_row_512 x8 c
  have e6 : (fun m d => k0_pay6 x0 x1 x2 (ix2 m d)) = NonLocal.pool (NonLocal.proj (fun n k => x0 (ix3 (0 : Fin 1) n k))
      (fun d k => x1 (ix2 d k)) (fun d => x2 (ix1 d))) :=
    funext fun m => funext fun d => pay6_apply x0 x1 x2 m d
  have e7 : (fun n m => k0_pay7 x0 x3 x5 x4 x6 (ix2 n m)) = NonLocal.logits (NonLocal.proj (fun n k => x0 (ix3 (0 : Fin 1) n k))
      (fun d k => x3 (ix2 d k)) (fun d => x4 (ix1 d))) (NonLocal.pool (NonLocal.proj (fun n k => x0 (ix3 (0 : Fin 1) n k))
      (fun d k => x5 (ix2 d k)) (fun d => x6 (ix1 d)))) :=
    funext fun n => funext fun m => pay7_apply x0 x3 x5 x4 x6 n m
  have e8 : (fun n => k0_pay8 x0 x3 x5 x4 x6 (ix1 n)) = NonLocal.rowMax (fun n m => k0_pay7 x0 x3 x5 x4 x6 (ix2 n m)) :=
    funext fun n => pay8_apply x0 x3 x5 x4 x6 n
  rw [e2, e4, e5, e6, e8, e7]

/-- One point of the grid: if the loaded block is member b of a stack X and the other loads are the arrays A1 … A12,
    the stored value at the block index y = (0, n, cc) is the stack function at the array index i = (b, n, cc). -/
theorem point_eq (X : S256x1024x512.Idx → EReal) (A1 : S256x512.Idx → EReal) (A2 : S256.Idx → EReal) (A3 : S256x512.Idx → EReal) (A4 : S256.Idx → EReal) (A5 : S256x512.Idx → EReal) (A6 : S256.Idx → EReal) (A7 : S512x256.Idx → EReal) (A8 : S512.Idx → EReal) (A9 : S512.Idx → EReal) (A10 : S512.Idx → EReal) (A11 : S512.Idx → EReal) (A12 : S512.Idx → EReal)
    (x0 : Vec Ideal S1x1024x512 .f32) (x1 : Vec Ideal S256x512 .f32) (x2 : Vec Ideal S256 .f32) (x3 : Vec Ideal S256x512 .f32) (x4 : Vec Ideal S256 .f32) (x5 : Vec Ideal S256x512 .f32) (x6 : Vec Ideal S256 .f32) (x7 : Vec Ideal S512x256 .f32) (x8 : Vec Ideal S512 .f32) (x9 : Vec Ideal S512 .f32) (x10 : Vec Ideal S512 .f32) (x11 : Vec Ideal S512 .f32) (x12 : Vec Ideal S512 .f32) (b : Fin 256)
    (h0 : ∀ n k, x0 (ix3 (0 : Fin 1) n k) = X (ix3 b n k))
    (h1 : ∀ p q, x1 (ix2 p q) = A1 (ix2 p q))
    (h2 : ∀ p, x2 (ix1 p) = A2 (ix1 p))
    (h3 : ∀ p q, x3 (ix2 p q) = A3 (ix2 p q))
    (h4 : ∀ p, x4 (ix1 p) = A4 (ix1 p))
    (h5 : ∀ p q, x5 (ix2 p q) = A5 (ix2 p q))
    (h6 : ∀ p, x6 (ix1 p) = A6 (ix1 p))
    (h7 : ∀ p q, x7 (ix2 p q) = A7 (ix2 p q))
    (h8 : ∀ p, x8 (ix1 p) = A8 (ix1 p))
    (h9 : ∀ p, x9 (ix1 p) = A9 (ix1 p))
    (h10 : ∀ p, x10 (ix1 p) = A10 (ix1 p))
    (h11 : ∀ p, x11 (ix1 p) = A11 (ix1 p))
    (h12 : ∀ p, x12 (ix1 p) = A12 (ix1 p))
    (y : S1x1024x512.Idx) (n : Fin 1024) (cc : Fin 512) (hy0 : (y 0).val = 0) (hy1 : (y 1).val = n.val) (hy2 : (y 2).val = cc.val)
    (i : S256x1024x512.Idx) (hi0 : (i 0).val = b.val) (hi1 : (i 1).val = n.val) (hi2 : (i 2).val = cc.val) :
    out0_13 x0 x1 x2 x3 x4 x5 x6 x7 x8 x9 x10 x11 x12 y = NonLocal.stack X A1 A2 A3 A4 A5 A6 A7 A8 A9 A10 A11 A12 i := by
  have hy : y = ix3 (0 : Fin 1) n cc := funext fun a => Fin.ext (by
    match a with
    | ⟨0, _⟩ => exact hy0
    | ⟨1, _⟩ => exact hy1
    | ⟨2, _⟩ => exact hy2)
  have hi : i = ix3 b n cc := funext fun a => Fin.ext (by
    match a with
    | ⟨0, _⟩ => exact hi0
    | ⟨1, _⟩ => exact hi1
    | ⟨2, _⟩ => exact hi2)
  rw [hy, hi, NonLocal.stack_apply, body_apply]
  simp only [h0, h1, h2, h3, h4, h5, h6, h7, h8, h9, h10, h11, h12]

/-! ## The windows' blocks -/

variable (m : (ℓ : Loc nD τ sig) → Buf (Elt Ideal) ℓ)

/-- The printed index maps, decided over the grid: the stack's and the output's blocks move with the point along the
    leading axis; every weight window stays at the origin. -/
theorem idx_facts : ∀ t : Fin cfg0.N, win0_0.index t (0 : Fin 3) = t.val
    ∧ win0_0.index t (1 : Fin 3) = 0
    ∧ win0_0.index t (2 : Fin 3) = 0
    ∧ win0_13.index t (0 : Fin 3) = t.val
    ∧ win0_13.index t (1 : Fin 3) = 0
    ∧ win0_13.index t (2 : Fin 3) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 1) = 0
    ∧ win0_7.index t (0 : Fin 2) = 0
    ∧ win0_7.index t (1 : Fin 2) = 0
    ∧ win0_8.index t (0 : Fin 1) = 0
    ∧ win0_9.index t (0 : Fin 1) = 0
    ∧ win0_10.index t (0 : Fin 1) = 0
    ∧ win0_11.index t (0 : Fin 1) = 0
    ∧ win0_12.index t (0 : Fin 1) = 0 :=
  (by decide +kernel : ∀ t : Fin grid0.N, _)

/-- Window 0's block at point t is member t of the gathered stack. -/
theorem blk0 (c : Dev nD) (t : Fin cfg0.N) (n : Fin 1024) (k : Fin 512) :
    iblk m c 0 t (ix3 (0 : Fin 1) n k) = V m c main_v6 (ix3 (n0 := 256) ⟨t.val, t.isLt⟩ n k) := by
  obtain ⟨e0, e1, e2, e3, e4, e5, e6, e7, e8, e9, e10, e11, e12, e13, e14, e15, e16, e17, e18, e19, e20, e21⟩ := idx_facts t
  show V m c main_v6 (((cfg0.win 0).blk t).view.emb (ix3 (0 : Fin 1) n k)) = _
  refine congrArg (V m c main_v6) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 512 + 1 * k.val = k.val; omega

/-- Window 1's block at every point is the whole array. -/
theorem blk1 (c : Dev nD) (t : Fin cfg0.N) (p : Fin 256) (q : Fin 512) :
    iblk m c 1 t (ix2 p q) = V m c main_arg3 (ix2 p q) := by
  obtain ⟨e0, e1, e2, e3, e4, e5, e6, e7, e8, e9, e10, e11, e12, e13, e14, e15, e16, e17, e18, e19, e20, e21⟩ := idx_facts t
  show V m c main_arg3 (((cfg0.win 1).blk t).view.emb (ix2 p q)) = _
  refine congrArg (V m c main_arg3) (funext fun a => Fin.ext ?_)
  match a with
  | ⟨0, _⟩ => show win0_1.index t (0 : Fin 2) * 256 + 1 * p.val = p.val; omega
  | ⟨1, _⟩ => show win0_1.index t (1 : Fin 2) * 512 + 1 * q.val = q.val; omega

/-- Window 2's block at every point is the whole array. -/
theorem blk2 (c : Dev nD) (t : Fin cfg0.N) (p : Fin 256) :
    iblk m c 2 t (ix1 p) = V m c main_arg4 (ix1 p) := by
  obtain ⟨e0, e1, e2, e3, e4, e5, e6, e7, e8, e9, e10, e11, e12, e13, e14, e15, e16, e17, e18, e19, e20, e21⟩ := idx_facts t
  show V m c main_arg4 (((cfg0.win 2).blk t).view.emb (ix1 p)) = _
  refine congrArg (V m c main_arg4) (funext fun a => Fin.ext ?_)
  match a with
  | ⟨0, _⟩ => show win0_2.index t (0 : Fin 1) * 256 + 1 * p.val = p.val; omega

/-- Window 3's block at every point is the whole array. -/
theorem blk3 (c : Dev nD) (t : Fin cfg0.N) (p : Fin 256) (q : Fin 512) :
    iblk m c 3 t (ix2 p q) = V m c main_arg5 (ix2 p q) := by
  obtain ⟨e0, e1, e2, e3, e4, e5, e6, e7, e8, e9, e10, e11, e12, e13, e14, e15, e16, e17, e18, e19, e20, e21⟩ := idx_facts t
  show V m c main_arg5 (((cfg0.win 3).blk t).view.emb (ix2 p q)) = _
  refine congrArg (V m c main_arg5) (funext fun a => Fin.ext ?_)
  match a with
  | ⟨0, _⟩ => show win0_3.index t (0 : Fin 2) * 256 + 1 * p.val = p.val; omega
  | ⟨1, _⟩ => show win0_3.index t (1 : Fin 2) * 512 + 1 * q.val = q.val; omega

/-- Window 4's block at every point is the whole array. -/
theorem blk4 (c : Dev nD) (t : Fin cfg0.N) (p : Fin 256) :
    iblk m c 4 t (ix1 p) = V m c main_arg6 (ix1 p) := by
  obtain ⟨e0, e1, e2, e3, e4, e5, e6, e7, e8, e9, e10, e11, e12, e13, e14, e15, e16, e17, e18, e19, e20, e21⟩ := idx_facts t
  show V m c main_arg6 (((cfg0.win 4).blk t).view.emb (ix1 p)) = _
  refine congrArg (V m c main_arg6) (funext fun a => Fin.ext ?_)
  match a with
  | ⟨0, _⟩ => show win0_4.index t (0 : Fin 1) * 256 + 1 * p.val = p.val; omega

/-- Window 5's block at every point is the whole array. -/
theorem blk5 (c : Dev nD) (t : Fin cfg0.N) (p : Fin 256) (q : Fin 512) :
    iblk m c 5 t (ix2 p q) = V m c main_arg7 (ix2 p q) := by
  obtain ⟨e0, e1, e2, e3, e4, e5, e6, e7, e8, e9, e10, e11, e12, e13, e14, e15, e16, e17, e18, e19, e20, e21⟩ := idx_facts t
  show V m c main_arg7 (((cfg0.win 5).blk t).view.emb (ix2 p q)) = _
  refine congrArg (V m c main_arg7) (funext fun a => Fin.ext ?_)
  match a with
  | ⟨0, _⟩ => show win0_5.index t (0 : Fin 2) * 256 + 1 * p.val = p.val; omega
  | ⟨1, _⟩ => show win0_5.index t (1 : Fin 2) * 512 + 1 * q.val = q.val; omega

/-- Window 6's block at every point is the whole array. -/
theorem blk6 (c : Dev nD) (t : Fin cfg0.N) (p : Fin 256) :
    iblk m c 6 t (ix1 p) = V m c main_arg8 (ix1 p) := by
  obtain ⟨e0, e1, e2, e3, e4, e5, e6, e7, e8, e9, e10, e11, e12, e13, e14, e15, e16, e17, e18, e19, e20, e21⟩ := idx_facts t
  show V m c main_arg8 (((cfg0.win 6).blk t).view.emb (ix1 p)) = _
  refine congrArg (V m c main_arg8) (funext fun a => Fin.ext ?_)
  match a with
  | ⟨0, _⟩ => show win0_6.index t (0 : Fin 1) * 256 + 1 * p.val = p.val; omega

/-- Window 7's block at every point is the whole array. -/
theorem blk7 (c : Dev nD) (t : Fin cfg0.N) (p : Fin 512) (q : Fin 256) :
    iblk m c 7 t (ix2 p q) = V m c main_arg9 (ix2 p q) := by
  obtain ⟨e0, e1, e2, e3, e4, e5, e6, e7, e8, e9, e10, e11, e12, e13, e14, e15, e16, e17, e18, e19, e20, e21⟩ := idx_facts t
  show V m c main_arg9 (((cfg0.win 7).blk t).view.emb (ix2 p q)) = _
  refine congrArg (V m c main_arg9) (funext fun a => Fin.ext ?_)
  match a with
  | ⟨0, _⟩ => show win0_7.index t (0 : Fin 2) * 512 + 1 * p.val = p.val; omega
  | ⟨1, _⟩ => show win0_7.index t (1 : Fin 2) * 256 + 1 * q.val = q.val; omega

/-- Window 8's block at every point is the whole array. -/
theorem blk8 (c : Dev nD) (t : Fin cfg0.N) (p : Fin 512) :
    iblk m c 8 t (ix1 p) = V m c main_arg10 (ix1 p) := by
  obtain ⟨e0, e1, e2, e3, e4, e5, e6, e7, e8, e9, e10, e11, e12, e13, e14, e15, e16, e17, e18, e19, e20, e21⟩ := idx_facts t
  show V m c main_arg10 (((cfg0.win 8).blk t).view.emb (ix1 p)) = _
  refine congrArg (V m c main_arg10) (funext fun a => Fin.ext ?_)
  match a with
  | ⟨0, _⟩ => show win0_8.index t (0 : Fin 1) * 512 + 1 * p.val = p.val; omega

/-- Window 9's block at every point is the whole array. -/
theorem blk9 (c : Dev nD) (t : Fin cfg0.N) (p : Fin 512) :
    iblk m c 9 t (ix1 p) = V m c main_arg11 (ix1 p) := by
  obtain ⟨e0, e1, e2, e3, e4, e5, e6, e7, e8, e9, e10, e11, e12, e13, e14, e15, e16, e17, e18, e19, e20, e21⟩ := idx_facts t
  show V m c main_arg11 (((cfg0.win 9).blk t).view.emb (ix1 p)) = _
  refine congrArg (V m c main_arg11) (funext fun a => Fin.ext ?_)
  match a with
  | ⟨0, _⟩ => show win0_9.index t (0 : Fin 1) * 512 + 1 * p.val = p.val; omega

/-- Window 10's block at every point is the whole array. -/
theorem blk10 (c : Dev nD) (t : Fin cfg0.N) (p : Fin 512) :
    iblk m c 10 t (ix1 p) = V m c main_arg12 (ix1 p) := by
  obtain ⟨e0, e1, e2, e3, e4, e5, e6, e7, e8, e9, e10, e11, e12, e13, e14, e15, e16, e17, e18, e19, e20, e21⟩ := idx_facts t
  show V m c main_arg12 (((cfg0.win 10).blk t).view.emb (ix1 p)) = _
  refine congrArg (V m c main_arg12) (funext fun a => Fin.ext ?_)
  match a with
  | ⟨0, _⟩ => show win0_10.index t (0 : Fin 1) * 512 + 1 * p.val = p.val; omega

/-- Window 11's block at every point is the whole array. -/
theorem blk11 (c : Dev nD) (t : Fin cfg0.N) (p : Fin 512) :
    iblk m c 11 t (ix1 p) = V m c main_arg13 (ix1 p) := by
  obtain ⟨e0, e1, e2, e3, e4, e5, e6, e7, e8, e9, e10, e11, e12, e13, e14, e15, e16, e17, e18, e19, e20, e21⟩ := idx_facts t
  show V m c main_arg13 (((cfg0.win 11).blk t).view.emb (ix1 p)) = _
  refine congrArg (V m c main_arg13) (funext fun a => Fin.ext ?_)
  match a with
  | ⟨0, _⟩ => show win0_11.index t (0 : Fin 1) * 512 + 1 * p.val = p.val; omega

/-- Window 12's block at every point is the whole array. -/
theorem blk12 (c : Dev nD) (t : Fin cfg0.N) (p : Fin 512) :
    iblk m c 12 t (ix1 p) = V m c main_arg14 (ix1 p) := by
  obtain ⟨e0, e1, e2, e3, e4, e5, e6, e7, e8, e9, e10, e11, e12, e13, e14, e15, e16, e17, e18, e19, e20, e21⟩ := idx_facts t
  show V m c main_arg14 (((cfg0.win 12).blk t).view.emb (ix1 p)) = _
  refine congrArg (V m c main_arg14) (funext fun a => Fin.ext ?_)
  match a with
  | ⟨0, _⟩ => show win0_12.index t (0 : Fin 1) * 512 + 1 * p.val = p.val; omega

/-! ## The output array -/

/-- The output array's contents as one function of the arrays the region finds: the attention block on every member
    of the gathered stack. -/
def outArr (c : Dev nD) : S256x1024x512.Idx → EReal :=
  NonLocal.stack (V m c main_v6) (V m c main_arg3) (V m c main_arg4) (V m c main_arg5) (V m c main_arg6) (V m c main_arg7) (V m c main_arg8) (V m c main_arg9) (V m c main_arg10) (V m c main_arg11) (V m c main_arg12) (V m c main_arg13) (V m c main_arg14)

/-- WHAT POINT t WRITES BACK is block t of that function. -/
theorem flushed_eq (c : Dev nD) (t : Fin cfg0.N) :
    (dats m 0 c).flushed 13 t = ((cfg0.win 13).blk t).view.read (Elt Ideal) (outArr m c) := by
  show (cfg0.win 13).cut (grid0.coords t) ((dats m 0 c).after 13 t) = _
  rw [after0_13]
  obtain ⟨e0, e1, e2, e3, e4, e5, e6, e7, e8, e9, e10, e11, e12, e13, e14, e15, e16, e17, e18, e19, e20, e21⟩ := idx_facts t
  funext j
  have hj0 : (j 0).val < 1 := (j 0).isLt
  have hj1 : (j 1).val < 1024 := (j 1).isLt
  have hj2 : (j 2).val < 512 := (j 2).isLt
  exact point_eq (V m c main_v6) (V m c main_arg3) (V m c main_arg4) (V m c main_arg5) (V m c main_arg6) (V m c main_arg7) (V m c main_arg8) (V m c main_arg9) (V m c main_arg10) (V m c main_arg11) (V m c main_arg12) (V m c main_arg13) (V m c main_arg14)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ⟨t.val, t.isLt⟩
    (blk0 m c t) (blk1 m c t) (blk2 m c t) (blk3 m c t) (blk4 m c t) (blk5 m c t) (blk6 m c t) (blk7 m c t) (blk8 m c t) (blk9 m c t) (blk10 m c t) (blk11 m c t) (blk12 m c t)
    j ⟨(j 1).val, hj1⟩ ⟨(j 2).val, hj2⟩ (by omega) rfl rfl (((cfg0.win 13).blk t).view.emb j)
    (by show win0_13.index t (0 : Fin 3) * 1 + 1 * (j 0).val = t.val; omega)
    (by show win0_13.index t (1 : Fin 3) * 1024 + 1 * (j 1).val = (j 1).val; omega)
    (by show win0_13.index t (2 : Fin 3) * 512 + 1 * (j 2).val = (j 2).val; omega)

/-- An index of the output array is in point t's block iff each coordinate is in the block's range on its axis. -/
theorem mem_blk (t : Fin cfg0.N) (i : S256x1024x512.Idx) :
    i ∈ ((cfg0.win 13).blk t).view.set ↔ ∀ a : Fin 3, win0_13.index t a * S1x1024x512.size a ≤ (i a).val
      ∧ (i a).val < win0_13.index t a * S1x1024x512.size a + S1x1024x512.size a := by
  show i ∈ ((View.whole main_v7).slice (win0_13.rect t)).set ↔ _
  rw [View.set_slice_whole, Rect.mem_set_unit]
  exact Iff.rfl

/-- Every index (b, n, c) of the output array is in point b's block. -/
theorem covered (i : S256x1024x512.Idx) :
    ∃ t : Fin cfg0.N, (cfg0.win 13).flush t = true ∧ i ∈ ((cfg0.win 13).blk t).view.set := by
  have hi0 : (i 0).val < 256 := (i 0).isLt
  have hi1 : (i 1).val < 1024 := (i 1).isLt
  have hi2 : (i 2).val < 512 := (i 2).isLt
  refine ⟨⟨(i 0).val, hi0⟩, flush0_13 _, ?_⟩
  generalize ht : (⟨(i 0).val, hi0⟩ : Fin cfg0.N) = t
  have htv : t.val = (i 0).val := by rw [← ht]
  obtain ⟨e0, e1, e2, e3, e4, e5, e6, e7, e8, e9, e10, e11, e12, e13, e14, e15, e16, e17, e18, e19, e20, e21⟩ := idx_facts t
  rw [mem_blk]
  intro a
  match a with
  | ⟨0, _⟩ => show win0_13.index t (0 : Fin 3) * 1 ≤ (i 0).val ∧ (i 0).val < win0_13.index t (0 : Fin 3) * 1 + 1; omega
  | ⟨1, _⟩ => show win0_13.index t (1 : Fin 3) * 1024 ≤ (i 1).val ∧ (i 1).val < win0_13.index t (1 : Fin 3) * 1024 + 1024; omega
  | ⟨2, _⟩ => show win0_13.index t (2 : Fin 3) * 512 ≤ (i 2).val ∧ (i 2).val < win0_13.index t (2 : Fin 3) * 512 + 512; omega

/-- THE OUTPUT ARRAY after the run: the attention block on every member of the gathered stack. -/
theorem final (c : Dev nD) : (dats m 0 c).arrAt 13 cfg0.N = outArr m c :=
  (dats m 0 c).arrAt_eq_of_cover 13 (outArr m c) (fun t _ => flushed_eq m c t) covered

end Cert.KernelBlock

end
-- ==== Proof.KernelRun.lean ====
/-
  The kernel program's run, read: what its result buffer holds at the end.

  Around the one region the program reorders nodes on the host. Before the region it takes, for every member of the
  stack, the rows named by the first index vector (a negative index first wrapped by adding 1024): the gathered stack
  the region reads. After the region it takes the rows of the region's output array named by the second index vector,
  wrapped the same way. The region leaves in its output array the attention block applied to every member of the
  gathered stack; so the result is the reordering, by the second index vector, of the block applied to the reordering,
  by the first, of the argument stack. The argument arrays end unchanged.
-/
import proofs.«100275_j1821066134159_2_alg».proof.Proof.Gen.KernelIdeal.Frame
import proofs.«100275_j1821066134159_2_alg».proof.Proof.KernelArray
import Idealize.ShloMosaic.Lib.StableHlo.Run

set_option maxRecDepth 16384

noncomputable section

namespace Cert.KernelBlock

open Cert.KernelIdeal Cert.KernelIdeal.Gen Idealize.ShloMosaic Idealize.ShloMosaic.ValueIdx Idealize.ShloMosaic.TcCoe
open Idealize.SL.Sem Idealize.ShloMosaic.StableHlo
open Idealize.ShloMosaic.Pipeline (Dat)

/-- A vector of 1024 node indices as the row gather takes it: a negative index wrapped by adding 1024, the vector viewed
    as a [1024, 1] column. -/
def wrapIdx (idx : (⟨S1024, .i32⟩ : BufTy).Contents (Elt Ideal)) : (⟨S1024x1, .i32⟩ : BufTy).Contents (Elt Ideal) :=
  broadcastInDim S1024x1 ![0] bcast_S1024_S1024x1_0
    (select (cmpi .slt idx (broadcastInDim S1024 ![] bcast_S_S1024 (constantI S_ 32 0#32)))
      (addi idx (broadcastInDim S1024 ![] bcast_S_S1024 (constantI S_ 32 1024#32))) idx)

/-- Reordering the nodes of every member of a stack: row n of the result is row idx(n) of the operand. -/
def reorder (x : (⟨S256x1024x512, .f32⟩ : BufTy).Contents (Elt Ideal)) (idx : (⟨S1024, .i32⟩ : BufTy).Contents (Elt Ideal)) :
    (⟨S256x1024x512, .f32⟩ : BufTy).Contents (Elt Ideal) :=
  Host.gather gather_S256x1024x512_S1024x1_S256x1024x512_02_1_n_n_1_1_2561512 x (wrapIdx idx)

variable (m : (ℓ : Loc nD τ sig) → Buf (Elt Ideal) ℓ) (ρ : Dev nD → PrngReg)

/-- The region finds the stack reordered by the first index vector. -/
theorem V_gathered (c : Dev nD) :
    V m c main_v6 = reorder (m ((c : Thread nD τ).loc main_arg0)) (m ((c : Thread nD τ).loc main_arg1)) := by
  show StableHlo.after hostOps0 (fun b => m (c, b)) (Proc.devRef .tc main_v6) = _
  after_results
  rfl

/-- The program's result as a function of its argument arrays on core c. -/
def result (c : Dev nD) : (⟨S256x1024x512, .f32⟩ : BufTy).Contents (Elt Ideal) :=
  reorder (NonLocal.stack (reorder (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (m ((c : Thread nD τ).loc main_arg2))

/-- The region's output array, in the argument arrays. -/
theorem outArr_eq (c : Dev nD) :
    outArr m c = NonLocal.stack (reorder (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold outArr
  rw [V_gathered, V_main_arg3, V_main_arg4, V_main_arg5, V_main_arg6, V_main_arg7, V_main_arg8, V_main_arg9, V_main_arg10, V_main_arg11, V_main_arg12, V_main_arg13, V_main_arg14]

/-- After the lines that follow the region the result buffer holds the output array reordered by the second index vector. -/
theorem tail_result (c : Dev nD) :
    Pipeline.afterTail₀ cfgs (dats m) 0 (V0 m) [hostOps1] c main_v14 = result m c := by
  have h13 : Pipeline.withArrays spec0 c (V0 m c) (fun w => (dats m 0 c).arrAt w cfg0.N) (Proc.devRef .tc main_v7)
      = (dats m 0 c).arrAt 13 cfg0.N :=
    Pipeline.withArrays_arr spec0 launch0.win.arr_inj c (V0 m c) (fun w => (dats m 0 c).arrAt w cfg0.N) 13
  have h2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by exact (by decide : ∀ w, Pipeline.arrRef spec0 w ≠ main_arg2))).trans
      (V_main_arg2 m c)
  unfold Pipeline.afterTail₀
  show StableHlo.after hostOps1 (Pipeline.withArrays spec0 c (V0 m c) fun w => (dats m 0 c).arrAt w cfg0.N) (Proc.devRef .tc main_v14) = _
  after_results
  rw [h13, h2, final, outArr_eq]
  rfl

/-- THE RUN: every weakly fair execution terminates with the result buffer at `result` and the arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).2 main_v14 (Pipeline.mem_restRefs_of main_v14 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c))),
      ((h c).1 5).trans (((dats m 0 c).arrAt_in 5 rfl _).trans ((A_eq m c 5).trans (V_main_arg7 m c))),
      ((h c).1 6).trans (((dats m 0 c).arrAt_in 6 rfl _).trans ((A_eq m c 6).trans (V_main_arg8 m c))),
      ((h c).1 7).trans (((dats m 0 c).arrAt_in 7 rfl _).trans ((A_eq m c 7).trans (V_main_arg9 m c))),
      ((h c).1 8).trans (((dats m 0 c).arrAt_in 8 rfl _).trans ((A_eq m c 8).trans (V_main_arg10 m c))),
      ((h c).1 9).trans (((dats m 0 c).arrAt_in 9 rfl _).trans ((A_eq m c 9).trans (V_main_arg11 m c))),
      ((h c).1 10).trans (((dats m 0 c).arrAt_in 10 rfl _).trans ((A_eq m c 10).trans (V_main_arg12 m c))),
      ((h c).1 11).trans (((dats m 0 c).arrAt_in 11 rfl _).trans ((A_eq m c 11).trans (V_main_arg13 m c))),
      ((h c).1 12).trans (((dats m 0 c).arrAt_in 12 rfl _).trans ((A_eq m c 12).trans (V_main_arg14 m c)))⟩) (run_main m ρ)

end Cert.KernelBlock

end
-- ==== Proof.Bridge.lean ====
/-
  The two programs compute one function of their arguments.

  The reference reorders the nodes of every member of the stack by the first index vector, applies the attention block
  to every member, and reorders the result by the second index vector; the kernel program does the same, its middle
  step on the accelerator one member per grid point. Read at an entry, the reference's middle array is the block of
  that entry's member; so as whole arrays the two middle steps are the same function of the same reordered stack, and
  the two programs' reorderings are the same host operation on the same index vectors.
-/
import proofs.«100275_j1821066134159_2_alg».proof.Proof.RefBlock
import proofs.«100275_j1821066134159_2_alg».proof.Proof.KernelRun

noncomputable section

namespace Cert.Bridge

open Idealize.ShloMosaic Idealize.ShloMosaic.ValueIdx
open Cert.ReferenceIdeal Cert.ReferenceIdeal.Read

/-- The reference's array before its last reordering is the attention block on every member of its reordered stack. -/
theorem ref_stack (x0 : (⟨S256x1024x512, .f32⟩ : BufTy).Contents (Elt Ideal)) (x1 : (⟨S1024, .i32⟩ : BufTy).Contents (Elt Ideal))
    (x3 : (⟨S256x512, .f32⟩ : BufTy).Contents (Elt Ideal)) (x4 : (⟨S256, .f32⟩ : BufTy).Contents (Elt Ideal))
    (x5 : (⟨S256x512, .f32⟩ : BufTy).Contents (Elt Ideal)) (x6 : (⟨S256, .f32⟩ : BufTy).Contents (Elt Ideal))
    (x7 : (⟨S256x512, .f32⟩ : BufTy).Contents (Elt Ideal)) (x8 : (⟨S256, .f32⟩ : BufTy).Contents (Elt Ideal))
    (x9 : (⟨S512x256, .f32⟩ : BufTy).Contents (Elt Ideal)) (x10 x11 x12 x13 x14 : (⟨S512, .f32⟩ : BufTy).Contents (Elt Ideal)) :
    val_main_v53 (F := Ideal) x0 x1 x3 x4 x5 x6 x7 x8 x9 x10 x11 x12 x13 x14
      = Cert.NonLocal.stack (val_main_v6 (F := Ideal) x0 x1) x3 x4 x5 x6 x7 x8 x9 x10 x11 x12 x13 x14 := by
  funext i
  have hi : i = ix3 (n0 := 256) (n1 := 1024) (n2 := 512) (i 0) (i 1) (i 2) := eq_ix3 i
  rw [hi]
  exact (Cert.RefBlock.ref_block x0 x1 x3 x4 x5 x6 x7 x8 x9 x10 x11 x12 x13 x14 (i 0) (i 1) (i 2)).trans
    (Cert.NonLocal.stack_apply (val_main_v6 (F := Ideal) x0 x1) x3 x4 x5 x6 x7 x8 x9 x10 x11 x12 x13 x14 (i 0) (i 1) (i 2)).symm

/-- The reference's first reordering is the kernel program's. -/
theorem ref_gathered (x0 : (⟨S256x1024x512, .f32⟩ : BufTy).Contents (Elt Ideal)) (x1 : (⟨S1024, .i32⟩ : BufTy).Contents (Elt Ideal)) :
    val_main_v6 (F := Ideal) x0 x1 = Cert.KernelBlock.reorder x0 x1 := rfl

/-- The reference's result is the kernel program's function of the same arguments. -/
theorem ref_result (x0 : (⟨S256x1024x512, .f32⟩ : BufTy).Contents (Elt Ideal)) (x1 x2 : (⟨S1024, .i32⟩ : BufTy).Contents (Elt Ideal))
    (x3 : (⟨S256x512, .f32⟩ : BufTy).Contents (Elt Ideal)) (x4 : (⟨S256, .f32⟩ : BufTy).Contents (Elt Ideal))
    (x5 : (⟨S256x512, .f32⟩ : BufTy).Contents (Elt Ideal)) (x6 : (⟨S256, .f32⟩ : BufTy).Contents (Elt Ideal))
    (x7 : (⟨S256x512, .f32⟩ : BufTy).Contents (Elt Ideal)) (x8 : (⟨S256, .f32⟩ : BufTy).Contents (Elt Ideal))
    (x9 : (⟨S512x256, .f32⟩ : BufTy).Contents (Elt Ideal)) (x10 x11 x12 x13 x14 : (⟨S512, .f32⟩ : BufTy).Contents (Elt Ideal)) :
    val_main_v60 (F := Ideal) x0 x1 x2 x3 x4 x5 x6 x7 x8 x9 x10 x11 x12 x13 x14
      = Cert.KernelBlock.reorder (Cert.NonLocal.stack (Cert.KernelBlock.reorder x0 x1) x3 x4 x5 x6 x7 x8 x9 x10 x11 x12 x13 x14) x2 := by
  unfold val_main_v60
  rw [ref_stack, ref_gathered]
  rfl

end Cert.Bridge

end
-- ==== Proof.lean ====
/-
  The certificate of a non-local (embedded-Gaussian) attention block with inference batch-norm and a residual, computed
  by an accelerator kernel one stack member per grid point, against its array-library reference.

  Both programs first reorder the 1024 nodes of every member of a [256, 1024, 512] stack by an index vector, and last
  reorder the result by a second index vector; in between, on every member, each node is projected to values, keys and
  queries, values and keys are max-pooled over groups of four consecutive nodes, each node attends to the 256 pooled keys
  by a softmax of inner products, the attended values are projected back to 512 channels, normalised per channel with
  stored statistics, and added to the node's features. The kernel rounds its matrix-product operands to a narrower
  format; read on the extended reals a change of format is the identity, so both programs compute the same operations
  in the same order and no algebraic law, and no finiteness of the inputs, is needed: the two results are equal as
  functions of the arguments, index by index.

  The three frames are the generated ones (the reference's is its generated run with the result dropped); nothing was
  rewritten by the idealisation, so that conjunct is trivial; the last conjunct puts the kernel program's run and the
  reference's run side by side at the one function of the arguments both compute.
-/
import proofs.«100275_j1821066134159_2_alg».proof.Defs
import proofs.«100275_j1821066134159_2_alg».proof.Proof.Gen.Kernel
import proofs.«100275_j1821066134159_2_alg».proof.Proof.Gen.Kernel.Frame
import proofs.«100275_j1821066134159_2_alg».proof.Proof.Gen.KernelIdeal
import proofs.«100275_j1821066134159_2_alg».proof.Proof.Gen.KernelIdeal.Frame
import proofs.«100275_j1821066134159_2_alg».proof.Proof.Gen.ReferenceIdeal
import proofs.«100275_j1821066134159_2_alg».proof.Proof.Gen.Pre_finite_inputs
import proofs.«100275_j1821066134159_2_alg».proof.Proof.Gen.ReferenceIdeal.Run
import proofs.«100275_j1821066134159_2_alg».proof.Proof.Gen.ReferenceIdeal.Read
import proofs.«100275_j1821066134159_2_alg».proof.Proof.Bridge
import Idealize.ShloMosaic.Adequacy
import Idealize.ShloMosaic.Init

noncomputable section

namespace Cert.Proof

open Idealize.ShloMosaic Idealize.SL.Sem

/-- The kernel program, as printed, runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the same result: the second reordering of the
    attention block on every member of the first reordering of the argument stack. -/
theorem algebraic : Cert.algebraic_KernelIdeal_ReferenceIdeal := by
  intro m ρ m' ρ' _ hagree
  refine ⟨fun c => Cert.KernelBlock.result m c, Cert.KernelBlock.run m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8, a9, a10, a11, a12, a13, a14⟩ := hagree c
  rw [Cert.ReferenceIdeal.Read.val_main_v60_eq, Cert.Bridge.ref_result, a0, a1, a2, a3, a4, a5, a6, a7, a8, a9, a10, a11, a12, a13, a14]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
